-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 86
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x64, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x64, .f32⟩
  | .hbm, ⟨58, _⟩ => ⟨S850000x1, .f32⟩
  | .hbm, ⟨59, _⟩ => ⟨S850000x64, .f32⟩
  | .hbm, ⟨60, _⟩ => ⟨S850000x64, .f32⟩
  | .hbm, ⟨61, _⟩ => ⟨S_, .f32⟩
  | .hbm, ⟨62, _⟩ => ⟨S50000x64, .f32⟩
  | .hbm, ⟨63, _⟩ => ⟨S850000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x64, .f32⟩
  | .hbm, ⟨76, _⟩ => ⟨S850000x1, .f32⟩
  | .hbm, ⟨77, _⟩ => ⟨S850000x64, .f32⟩
  | .hbm, ⟨78, _⟩ => ⟨S850000x64, .f32⟩
  | .hbm, ⟨79, _⟩ => ⟨S_, .f32⟩
  | .hbm, ⟨80, _⟩ => ⟨S50000x64, .f32⟩
  | .hbm, ⟨81, _⟩ => ⟨S850000x1, .i32⟩
  | .hbm, ⟨82, _⟩ => ⟨S50000x64, .f32⟩
  | .hbm, ⟨83, _⟩ => ⟨S1x64, .f32⟩
  | .hbm, ⟨84, _⟩ => ⟨S1x64, .f32⟩
  | .hbm, ⟨85, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x64 : Shape := ⟨2, ![50000, 64]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 128
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S50000x64, .f32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x64, .f32⟩
  | .hbm, ⟨58, _⟩ => ⟨S850000x1, .f32⟩
  | .hbm, ⟨59, _⟩ => ⟨S850000x64, .f32⟩
  | .hbm, ⟨60, _⟩ => ⟨S850000x64, .f32⟩
  | .hbm, ⟨61, _⟩ => ⟨S_, .f32⟩
  | .hbm, ⟨62, _⟩ => ⟨S50000x64, .f32⟩
  | .hbm, ⟨63, _⟩ => ⟨S850000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S_, .f32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S_, .f32⟩
  | .hbm, ⟨73, _⟩ => ⟨S850000, .f32⟩
  | .hbm, ⟨74, _⟩ => ⟨S_, .f32⟩
  | .hbm, ⟨75, _⟩ => ⟨S50000, .f32⟩
  | .hbm, ⟨76, _⟩ => ⟨S850000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .i1⟩
  | .hbm, ⟨81, _⟩ => ⟨S50000, .f32⟩
  | .hbm, ⟨82, _⟩ => ⟨S_, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S_, .i32⟩
  | .hbm, ⟨87, _⟩ => ⟨S850000, .i32⟩
  | .hbm, ⟨88, _⟩ => ⟨S850000, .i1⟩
  | .hbm, ⟨89, _⟩ => ⟨S_, .i32⟩
  | .hbm, ⟨90, _⟩ => ⟨S850000, .i32⟩
  | .hbm, ⟨91, _⟩ => ⟨S850000, .i32⟩
  | .hbm, ⟨92, _⟩ => ⟨S850000, .i32⟩
  | .hbm, ⟨93, _⟩ => ⟨S850000x1, .i32⟩
  | .hbm, ⟨94, _⟩ => ⟨S850000, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000, .f32⟩
  | .hbm, ⟨104, _⟩ => ⟨S850000, .f32⟩
  | .hbm, ⟨105, _⟩ => ⟨S_, .i32⟩
  | .hbm, ⟨106, _⟩ => ⟨S850000, .i32⟩
  | .hbm, ⟨107, _⟩ => ⟨S850000, .i1⟩
  | .hbm, ⟨108, _⟩ => ⟨S_, .i32⟩
  | .hbm, ⟨109, _⟩ => ⟨S850000, .i32⟩
  | .hbm, ⟨110, _⟩ => ⟨S850000, .i32⟩
  | .hbm, ⟨111, _⟩ => ⟨S850000, .i32⟩
  | .hbm, ⟨112, _⟩ => ⟨S850000x1, .i32⟩
  | .hbm, ⟨113, _⟩ => ⟨S850000x64, .f32⟩
  | .hbm, ⟨114, _⟩ => ⟨S850000x1, .f32⟩
  | .hbm, ⟨115, _⟩ => ⟨S850000x64, .f32⟩
  | .hbm, ⟨116, _⟩ => ⟨S850000x64, .f32⟩
  | .hbm, ⟨117, _⟩ => ⟨S_, .f32⟩
  | .hbm, ⟨118, _⟩ => ⟨S50000x64, .f32⟩
  | .hbm, ⟨119, _⟩ => ⟨S850000x1, .i32⟩
  | .hbm, ⟨120, _⟩ => ⟨S50000x64, .f32⟩
  | .hbm, ⟨121, _⟩ => ⟨S1x64, .f32⟩
  | .hbm, ⟨122, _⟩ => ⟨S50000x64, .f32⟩
  | .hbm, ⟨123, _⟩ => ⟨S50000x64, .f32⟩
  | .hbm, ⟨124, _⟩ => ⟨S50000x64, .f32⟩
  | .hbm, ⟨125, _⟩ => ⟨S1x64, .f32⟩
  | .hbm, ⟨126, _⟩ => ⟨S50000x64, .f32⟩
  | .hbm, ⟨127, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x64_S50000x64_1_0_0_1_n_n_wf : DotDims.WF S50000x128 S128x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibLayers.lean ====
/-
  The dense pieces of a graph-convolution network, entry by entry over the extended reals and at any sizes:
  the matrix product `x · W`, a vector added to every row of a matrix, and the rectifier. Entry `(r, q)` of
  `x · W` is `∑ k, x (r, k) · W (k, q)`, so row `r` of the product depends on row `r` of `x` only; adding a
  row vector and cutting off at zero act on each entry alone. Hence a block of consecutive rows of any
  composition of the three, computed from that block of rows alone, is the same block of the whole result:
  `prod_rows`, `addRow_apply` and `relu_apply` say it one operation at a time.
-/
import Idealize.ShloMosaic.PureOps.Ideal
import Idealize.ShloMosaic.Lib.ValueIdx

noncomputable section

open scoped BigOperators

namespace Cert.Layers

open Idealize.ShloMosaic Idealize.ShloMosaic.ValueIdx

/-- The matrix product: entry `(r, q)` is the inner product of row `r` of `x` with column `q` of `W`. -/
def prod {M K N : ℕ} (x : FVec Ideal ⟨2, ![M, K]⟩ .f32) (W : FVec Ideal ⟨2, ![K, N]⟩ .f32) :
    FVec Ideal ⟨2, ![M, N]⟩ .f32 :=
  fun i => ∑ k : Fin K, x (ix2 (i 0) k) * W (ix2 k (i 1))

/-- The product at an entry given by its two coordinates. -/
theorem prod_apply {M K N : ℕ} (x : FVec Ideal ⟨2, ![M, K]⟩ .f32) (W : FVec Ideal ⟨2, ![K, N]⟩ .f32)
    (r : Fin M) (q : Fin N) : prod x W (ix2 r q) = ∑ k : Fin K, x (ix2 r k) * W (ix2 k q) := rfl

/-- Row `r` of `x · W` is determined by row `r` of `x`: two left factors (of any heights) that agree along the
    rows `r` and `r'` give products that agree at `(r, q)` and `(r', q)`. -/
theorem prod_rows {M M' K N : ℕ} (x : FVec Ideal ⟨2, ![M, K]⟩ .f32) (x' : FVec Ideal ⟨2, ![M', K]⟩ .f32)
    (W : FVec Ideal ⟨2, ![K, N]⟩ .f32) (r : Fin M) (r' : Fin M') (q : Fin N)
    (h : ∀ k : Fin K, x (ix2 r k) = x' (ix2 r' k)) : prod x W (ix2 r q) = prod x' W (ix2 r' q) := by
  rw [prod_apply, prod_apply]
  exact Finset.sum_congr rfl fun k _ => by rw [h k]

/-- A vector, kept as a one-row matrix, added to every row: entry `(r, q)` is `a (r, q) + b (0, q)`. -/
def addRow {M N : ℕ} (a : FVec Ideal ⟨2, ![M, N]⟩ .f32) (b : FVec Ideal ⟨2, ![1, N]⟩ .f32) :
    FVec Ideal ⟨2, ![M, N]⟩ .f32 :=
  fun i => a i + b (ix2 (0 : Fin 1) (i 1))

theorem addRow_apply {M N : ℕ} (a : FVec Ideal ⟨2, ![M, N]⟩ .f32) (b : FVec Ideal ⟨2, ![1, N]⟩ .f32)
    (r : Fin M) (q : Fin N) : addRow a b (ix2 r q) = a (ix2 r q) + b (ix2 (0 : Fin 1) q) := rfl

/-- The rectifier: every entry cut off below at zero. -/
def relu {M N : ℕ} (a : FVec Ideal ⟨2, ![M, N]⟩ .f32) : FVec Ideal ⟨2, ![M, N]⟩ .f32 :=
  fun i => max (a i) (Ideal.ofBits .f32 0x00000000#32)

theorem relu_apply {M N : ℕ} (a : FVec Ideal ⟨2, ![M, N]⟩ .f32) (r : Fin M) (q : Fin N) :
    relu a (ix2 r q) = max (a (ix2 r q)) (Ideal.ofBits .f32 0x00000000#32) := rfl

end Cert.Layers

end
-- ==== Proof.KernelDot.lean ====
/-
  The kernel bodies' two matrix products at an entry. A body multiplies a block of 5000 rows (of width 128 or 64)
  by a whole weight matrix into a zero accumulator; the formats of the two factors are changed first, which over
  the extended reals changes nothing. Entry `(p, q)` of the result is `∑ k, l (p, k) · r (k, q)`: the product
  `Layers.prod` of the two loaded blocks.
-/
import proofs.«162209_j45569603010897_1_alg».proof.KernelIdeal
import proofs.«162209_j45569603010897_1_alg».proof.Proof.Gen.KernelIdeal
import proofs.«162209_j45569603010897_1_alg».proof.Proof.LibLayers
import Idealize.ShloMosaic.Lib.ValueIdx
import Idealize.ShloMosaic.PureOps.Ideal.Laws

noncomputable section

open scoped BigOperators

namespace Cert.KernelValue

open Cert.KernelIdeal Idealize.ShloMosaic Idealize.ShloMosaic.ValueIdx Cert.Layers

/-! ### The record `dot_S5000x128_S128x64_S5000x64_1_0_0_1_n_n`: rows × 128 times 128 × columns, one contracted axis -/

theorem k128_l0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem k128_l1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem k128_r0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem k128_r1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The sum over the record's contraction indices is the sum over `k : Fin 128` of the left factor at `(row, k)`
    times the right factor at `(k, column)`. -/
theorem k128_sum (l : S5000x128.Idx → EReal) (r : S128x64.Idx → EReal) (i : S5000x64.Idx) :
    (∑ q : dot_S5000x128_S128x64_S5000x64_1_0_0_1_n_n.contr.Idx, l (dot_S5000x128_S128x64_S5000x64_1_0_0_1_n_n.lhsIdx i q) * r (dot_S5000x128_S128x64_S5000x64_1_0_0_1_n_n.rhsIdx i q))
      = ∑ k : Fin 128, l (ix2 (i 0) k) * r (ix2 k (i 1)) := by
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx i ((contrEquiv1 dot_S5000x128_S128x64_S5000x64_1_0_0_1_n_n 128 rfl rfl).symm k) = ix2 (i 0) k := funext fun a => Fin.ext (by
    match a with
    | ⟨0, _⟩ => exact k128_l0 _ _
    | ⟨1, _⟩ => exact (k128_l1 _ _).trans hk)
  have er : dot_S5000x128_S128x64_S5000x64_1_0_0_1_n_n.rhsIdx i ((contrEquiv1 dot_S5000x128_S128x64_S5000x64_1_0_0_1_n_n 128 rfl rfl).symm k) = ix2 k (i 1) := funext fun a => Fin.ext (by
    match a with
    | ⟨0, _⟩ => exact (k128_r0 _ _).trans hk
    | ⟨1, _⟩ => exact k128_r1 _ _)
  exact congrArg₂ (· * ·) (congrArg l el) (congrArg r er)

/-! ### The record `dot_S5000x64_S64x64_S5000x64_1_0_0_1_n_n`: rows × 64 times 64 × columns, one contracted axis -/

theorem k64_l0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem k64_l1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem k64_r0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem k64_r1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The sum over the record's contraction indices is the sum over `k : Fin 64` of the left factor at `(row, k)`
    times the right factor at `(k, column)`. -/
theorem k64_sum (l : S5000x64.Idx → EReal) (r : S64x64.Idx → EReal) (i : S5000x64.Idx) :
    (∑ q : dot_S5000x64_S64x64_S5000x64_1_0_0_1_n_n.contr.Idx, l (dot_S5000x64_S64x64_S5000x64_1_0_0_1_n_n.lhsIdx i q) * r (dot_S5000x64_S64x64_S5000x64_1_0_0_1_n_n.rhsIdx i q))
      = ∑ k : Fin 64, l (ix2 (i 0) k) * r (ix2 k (i 1)) := by
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx i ((contrEquiv1 dot_S5000x64_S64x64_S5000x64_1_0_0_1_n_n 64 rfl rfl).symm k) = ix2 (i 0) k := funext fun a => Fin.ext (by
    match a with
    | ⟨0, _⟩ => exact k64_l0 _ _
    | ⟨1, _⟩ => exact (k64_l1 _ _).trans hk)
  have er : dot_S5000x64_S64x64_S5000x64_1_0_0_1_n_n.rhsIdx i ((contrEquiv1 dot_S5000x64_S64x64_S5000x64_1_0_0_1_n_n 64 rfl rfl).symm k) = ix2 k (i 1) := funext fun a => Fin.ext (by
    match a with
    | ⟨0, _⟩ => exact (k64_r0 _ _).trans hk
    | ⟨1, _⟩ => exact k64_r1 _ _)
  exact congrArg₂ (· * ·) (congrArg l el) (congrArg r er)

/-- A block of 5000 rows of width 128 times the 128 × 64 weights, into zero: the product of the two. -/
theorem matmul128 (x : FVec Ideal S5000x128 .f32) (W : FVec Ideal S128x64 .f32)
    (h1 h2 : FTy.bf16.bits < FTy.f32.bits) :
    matmul dot_S5000x128_S128x64_S5000x64_1_0_0_1_n_n none (truncf .bf16 x h1) (truncf .bf16 W h2)
      (constant (F := Ideal) S5000x64 .f32 0x00000000#32) = prod x W := by
  funext i
  refine (Ideal.matmul_constant_zero_apply dot_S5000x128_S128x64_S5000x64_1_0_0_1_n_n none (truncf .bf16 x h1) (truncf .bf16 W h2) i).trans ?_
  exact k128_sum (fun j => x j) (fun j => W j) i

/-- A block of 5000 rows of width 64 times the 64 × 64 weights, into zero: the product of the two. -/
theorem matmul64 (x : FVec Ideal S5000x64 .f32) (W : FVec Ideal S64x64 .f32)
    (h1 h2 : FTy.bf16.bits < FTy.f32.bits) :
    matmul dot_S5000x64_S64x64_S5000x64_1_0_0_1_n_n none (truncf .bf16 x h1) (truncf .bf16 W h2)
      (constant (F := Ideal) S5000x64 .f32 0x00000000#32) = prod x W := by
  funext i
  refine (Ideal.matmul_constant_zero_apply dot_S5000x64_S64x64_S5000x64_1_0_0_1_n_n none (truncf .bf16 x h1) (truncf .bf16 W h2) i).trans ?_
  exact k64_sum (fun j => x j) (fun j => W j) i

end Cert.KernelValue

end
-- ==== Proof.Payload.lean ====
/-
  What each of the three kernel bodies stores, as a function of the blocks it loads. The bodies cast their loaded
  blocks to their own shapes (the identity), spread the one-row bias over the 5000 rows of the block, change
  formats before the product (the identity over the extended reals) and multiply into a zero accumulator:
    body 0:  x · W;    body 1:  relu (a + b) · W;    body 2:  (a + b) · W + b'.
-/
import proofs.«162209_j45569603010897_1_alg».proof.Proof.Gen.KernelIdeal.Skeleton
import proofs.«162209_j45569603010897_1_alg».proof.Proof.KernelDot
import Idealize.ShloMosaic.Lib.Pipeline.Value
import Idealize.ShloMosaic.Lib.ValueLayout

noncomputable section

namespace Cert.KernelValue

open Cert.KernelIdeal Cert.KernelIdeal.Gen Idealize.ShloMosaic Idealize.ShloMosaic.ValueIdx Cert.Layers

/-- The one-row bias spread over the 5000 rows of a block and added to it, through the body's identity cast of the row. -/
theorem spread (y : FVec Ideal S5000x64 .f32) (b : FVec Ideal S1x64 .f32) (h2 h3) :
    addf y (broadcastTo S5000x64 (shapeCast S1x64 b h2) h3) = addRow y b := by
  funext i
  obtain ⟨p, q, rfl⟩ : ∃ (p : Fin 5000) (q : Fin 64), i = ix2 p q := ⟨i 0, i 1, eq_ix2 i⟩
  show y (ix2 p q) + broadcastTo S5000x64 (shapeCast S1x64 b h2) h3 (ix2 p q) = y (ix2 p q) + b (ix2 (0 : Fin 1) q)
  rw [broadcastTo_1b_ab_apply, shapeCast_self]

theorem pay0 (x : Vec Ideal S5000x128 .f32) (W : Vec Ideal S128x64 .f32) : k0_pay1 x W = prod x W :=
  matmul128 x W _ _

theorem pay1_aux (a : FVec Ideal S5000x64 .f32) (b : FVec Ideal S1x64 .f32) (W : FVec Ideal S64x64 .f32) (h1 h2 h3 h4 h5) :
    matmul dot_S5000x64_S64x64_S5000x64_1_0_0_1_n_n none
      (truncf .bf16 (maximumf (addf (shapeCast S5000x64 a h1) (broadcastTo S5000x64 (shapeCast S1x64 b h2) h3))
        (broadcast S5000x64 (Scalar.ofBits (F := Ideal) .f32 0x00000000#32))) h4)
      (truncf .bf16 W h5) (constant (F := Ideal) S5000x64 .f32 0x00000000#32)
    = prod (relu (addRow a b)) W := by
  rw [matmul64, shapeCast_self, spread]
  rfl

theorem pay1 (a : Vec Ideal S5000x64 .f32) (b : Vec Ideal S1x64 .f32) (W : Vec Ideal S64x64 .f32) :
    k1_pay1 a b W = prod (relu (addRow a b)) W :=
  pay1_aux a b W _ _ _ _ _

theorem pay2_aux (a : FVec Ideal S5000x64 .f32) (b : FVec Ideal S1x64 .f32) (W : FVec Ideal S64x64 .f32) (b' : FVec Ideal S1x64 .f32)
    (h1 h2 h3 h4 h5 h6 h7) :
    addf (matmul dot_S5000x64_S64x64_S5000x64_1_0_0_1_n_n none
        (truncf .bf16 (addf (shapeCast S5000x64 a h1) (broadcastTo S5000x64 (shapeCast S1x64 b h2) h3)) h4)
        (truncf .bf16 W h5) (constant (F := Ideal) S5000x64 .f32 0x00000000#32))
      (broadcastTo S5000x64 (shapeCast S1x64 b' h6) h7)
    = addRow (prod (addRow a b) W) b' := by
  rw [spread, matmul64, shapeCast_self, spread]

theorem pay2 (a : Vec Ideal S5000x64 .f32) (b : Vec Ideal S1x64 .f32) (W : Vec Ideal S64x64 .f32) (b' : Vec Ideal S1x64 .f32) :
    k2_pay1 a b W b' = addRow (prod (addRow a b) W) b' :=
  pay2_aux a b W b' _ _ _ _ _ _ _

end Cert.KernelValue

end
-- ==== Proof.Blocks.lean ====
/-
  Each pallas_call's output array as ONE function of the arrays it was entered with. A call walks ten grid
  points; point `t` loads rows 5000·t … 5000·t + 4999 of its first operand and the other operands whole, runs its
  body, and writes the result back as rows 5000·t … of the output. Because a row of every layer depends on the
  same row of its first operand only (`Layers.prod` row by row, the bias and the rectifier entry by entry), what
  point `t` writes is block `t` of the layer applied to the WHOLE arrays; the ten blocks tile the 50000 rows, so
  the output array ends holding the whole layer. All of this holds whatever the buffers held at the call's entry.
-/
import proofs.«162209_j45569603010897_1_alg».proof.Proof.Gen.KernelIdeal.Frame
import proofs.«162209_j45569603010897_1_alg».proof.Proof.Payload
import Idealize.ShloMosaic.Lib.Pipeline.Value

set_option maxRecDepth 16384

noncomputable section

namespace Cert.KernelValue

open Cert.KernelIdeal Cert.KernelIdeal.Gen Idealize.ShloMosaic Idealize.ShloMosaic.TcCoe Idealize.ShloMosaic.ValueIdx Cert.Layers
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Row locality of the three layers, over plain arrays -/

theorem layer0_block (X : FVec Ideal S50000x128 .f32) (Wt : FVec Ideal S128x64 .f32)
    (xb : FVec Ideal S5000x128 .f32) (wb : FVec Ideal S128x64 .f32) (y : S5000x64.Idx) (i : S50000x64.Idx)
    (hx : ∀ k : Fin 128, xb (ix2 (y 0) k) = X (ix2 (i 0) k)) (hw : ∀ k : Fin 128, wb (ix2 k (y 1)) = Wt (ix2 k (i 1))) :
    prod xb wb y = prod X Wt i :=
  Finset.sum_congr rfl fun k _ => by rw [hx k, hw k]

theorem layer1_block (A : FVec Ideal S50000x64 .f32) (B : FVec Ideal S1x64 .f32) (Wt : FVec Ideal S64x64 .f32)
    (ab : FVec Ideal S5000x64 .f32) (bb : FVec Ideal S1x64 .f32) (wb : FVec Ideal S64x64 .f32) (y : S5000x64.Idx) (i : S50000x64.Idx)
    (ha : ∀ k : Fin 64, ab (ix2 (y 0) k) = A (ix2 (i 0) k)) (hb : ∀ k : Fin 64, bb (ix2 (0 : Fin 1) k) = B (ix2 (0 : Fin 1) k))
    (hw : ∀ k : Fin 64, wb (ix2 k (y 1)) = Wt (ix2 k (i 1))) :
    prod (relu (addRow ab bb)) wb y = prod (relu (addRow A B)) Wt i := by
  show ∑ k : Fin 64, max (ab (ix2 (y 0) k) + bb (ix2 (0 : Fin 1) k)) (Ideal.ofBits .f32 0x00000000#32) * wb (ix2 k (y 1))
    = ∑ k : Fin 64, max (A (ix2 (i 0) k) + B (ix2 (0 : Fin 1) k)) (Ideal.ofBits .f32 0x00000000#32) * Wt (ix2 k (i 1))
  exact Finset.sum_congr rfl fun k _ => by rw [ha k, hb k, hw k]

theorem layer2_block (A : FVec Ideal S50000x64 .f32) (B : FVec Ideal S1x64 .f32) (Wt : FVec Ideal S64x64 .f32) (B' : FVec Ideal S1x64 .f32)
    (ab : FVec Ideal S5000x64 .f32) (bb : FVec Ideal S1x64 .f32) (wb : FVec Ideal S64x64 .f32) (bb' : FVec Ideal S1x64 .f32)
    (y : S5000x64.Idx) (i : S50000x64.Idx)
    (ha : ∀ k : Fin 64, ab (ix2 (y 0) k) = A (ix2 (i 0) k)) (hb : ∀ k : Fin 64, bb (ix2 (0 : Fin 1) k) = B (ix2 (0 : Fin 1) k))
    (hw : ∀ k : Fin 64, wb (ix2 k (y 1)) = Wt (ix2 k (i 1))) (hb' : bb' (ix2 (0 : Fin 1) (y 1)) = B' (ix2 (0 : Fin 1) (i 1))) :
    addRow (prod (addRow ab bb) wb) bb' y = addRow (prod (addRow A B) Wt) B' i := by
  show (∑ k : Fin 64, (ab (ix2 (y 0) k) + bb (ix2 (0 : Fin 1) k)) * wb (ix2 k (y 1))) + bb' (ix2 (0 : Fin 1) (y 1))
    = (∑ k : Fin 64, (A (ix2 (i 0) k) + B (ix2 (0 : Fin 1) k)) * Wt (ix2 k (i 1))) + B' (ix2 (0 : Fin 1) (i 1))
  rw [hb']
  exact congrArg (· + B' (ix2 (0 : Fin 1) (i 1))) (Finset.sum_congr rfl fun k _ => by rw [ha k, hb k, hw k])

/-! ## Region 0: `x · W` -/

/-- The printed index maps over the ten points: the row-blocked windows sit at block `(t, 0)`, the whole ones at `(0, 0)`. -/
theorem idxOut0 : ∀ t : Fin cfg0.N, win0_2.index t (0 : Fin 2) = t.val ∧ win0_2.index t (1 : Fin 2) = 0 :=
  (by decide +kernel : ∀ t : Fin grid0.N, _)
theorem idxIn0 : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- What point `t` writes back is block `t` of `x · W` of the arrays as the call finds them. -/
theorem flushed0 (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  rw [pay0]
  obtain ⟨e0, e1, e2, e3⟩ := idxIn0 t
  obtain ⟨e4, e5⟩ := idxOut0 t
  funext j
  refine layer0_block (V c main_arg0) (V c main_arg2) (iblk0 V c 0 t) (iblk0 V c 1 t) j (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg2 (((cfg0.win 1).blk t).view.emb (ix2 k (j 1))) = V c main_arg2 (ix2 k ((((cfg0.win 2).blk t).view.emb j) 1))
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega

/-- An index of the output array is in point `t`'s block iff each coordinate is in the block's range. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Row `r` lies in the block of point `r / 5000`. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : grid0.N = 10 := N_0
  have ht : (i 0).val / 5000 < grid0.N := by rw [hN]; omega
  have e4 : win0_2.index ⟨(i 0).val / 5000, ht⟩ (0 : Fin 2) = (i 0).val / 5000 := (idxOut0 ⟨(i 0).val / 5000, ht⟩).1
  have e5 : win0_2.index ⟨(i 0).val / 5000, ht⟩ (1 : Fin 2) = 0 := (idxOut0 ⟨(i 0).val / 5000, ht⟩).2
  refine ⟨⟨(i 0).val / 5000, ht⟩, flush0_2 _, ?_⟩
  rw [mem_blk0]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; omega
  | ⟨1, _⟩ => show win0_2.index ⟨(i 0).val / 5000, ht⟩ (1 : Fin 2) * 64 ≤ (i 1).val ∧ (i 1).val < win0_2.index ⟨(i 0).val / 5000, ht⟩ (1 : Fin 2) * 64 + 64; omega

/-- The first call's output array: `x · W` of the arrays it was entered with. -/
theorem final0 (c : Dev nD) : (dat0 V c).arrAt 2 cfg0.N = prod (V c main_arg0) (V c main_arg2) :=
  (dat0 V c).arrAt_eq_of_cover 2 _ (fun t _ => flushed0 V c t) cover0

/-! ## Region 1: `relu (a + b) · W` -/

theorem idxOut1 : ∀ t : Fin cfg1.N, win1_3.index t (0 : Fin 2) = t.val ∧ win1_3.index t (1 : Fin 2) = 0 :=
  (by decide +kernel : ∀ t : Fin grid1.N, _)
theorem idxIn1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- What point `t` writes back is block `t` of `relu (a + b) · W` of the arrays as the call finds them. -/
theorem flushed1 (c : Dev nD) (t : Fin cfg1.N) :
    (dat1 V c).flushed 3 t = ((cfg1.win 3).blk t).view.read (Elt Ideal)
      (prod (relu (addRow (V c main_v43) (V c main_v44))) (V c main_arg4)) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S64x64) hz]
  rw [pay1]
  obtain ⟨e0, e1, e2, e3, e6, e7⟩ := idxIn1 t
  obtain ⟨e4, e5⟩ := idxOut1 t
  funext j
  refine layer1_block (V c main_v43) (V c main_v44) (V c main_arg4) (iblk1 V c 0 t) (iblk1 V c 1 t) (iblk1 V c 2 t) j (((cfg1.win 3).blk t).view.emb j) (fun k => ?_) (fun k => ?_) (fun k => ?_)
  · show V c main_v43 (((cfg1.win 0).blk t).view.emb (ix2 (j 0) k)) = V c main_v43 (ix2 ((((cfg1.win 3).blk t).view.emb j) 0) k)
    refine congrArg _ (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * k.val = k.val; omega
  · show V c main_v44 (((cfg1.win 1).blk t).view.emb (ix2 (0 : Fin 1) k)) = V c main_v44 (ix2 (0 : Fin 1) k)
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  · show V c main_arg4 (((cfg1.win 2).blk t).view.emb (ix2 k (j 1))) = V c main_arg4 (ix2 k ((((cfg1.win 3).blk t).view.emb j) 1))
    refine congrArg _ (funext fun a => Fin.ext ?_)
    match a with
    | ⟨0, _⟩ => show win1_2.index t (0 : Fin 2) * 64 + 1 * k.val = k.val; omega
    | ⟨1, _⟩ => show win1_2.index t (1 : Fin 2) * 64 + 1 * (j 1).val = win1_3.index t (1 : Fin 2) * 64 + 1 * (j 1).val; omega

/-- An index of the output array is in point `t`'s block iff each coordinate is in the block's range. -/
theorem mem_blk1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- Row `r` lies in the block of point `r / 5000`. -/
theorem cover1 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : grid1.N = 10 := N_1
  have ht : (i 0).val / 5000 < grid1.N := by rw [hN]; omega
  have e4 : win1_3.index ⟨(i 0).val / 5000, ht⟩ (0 : Fin 2) = (i 0).val / 5000 := (idxOut1 ⟨(i 0).val / 5000, ht⟩).1
  have e5 : win1_3.index ⟨(i 0).val / 5000, ht⟩ (1 : Fin 2) = 0 := (idxOut1 ⟨(i 0).val / 5000, ht⟩).2
  refine ⟨⟨(i 0).val / 5000, ht⟩, flush1_3 _, ?_⟩
  rw [mem_blk1]
  intro a
  match a with
  | ⟨0, _⟩ => show win1_3.index ⟨(i 0).val / 5000, ht⟩ (0 : Fin 2) * 5000 ≤ (i 0).val ∧ (i 0).val < win1_3.index ⟨(i 0).val / 5000, ht⟩ (0 : Fin 2) * 5000 + 5000; omega
  | ⟨1, _⟩ => show win1_3.index ⟨(i 0).val / 5000, ht⟩ (1 : Fin 2) * 64 ≤ (i 1).val ∧ (i 1).val < win1_3.index ⟨(i 0).val / 5000, ht⟩ (1 : Fin 2) * 64 + 64; omega

/-- The second call's output array. -/
theorem final1 (c : Dev nD) : (dat1 V c).arrAt 3 cfg1.N = prod (relu (addRow (V c main_v43) (V c main_v44))) (V c main_arg4) :=
  (dat1 V c).arrAt_eq_of_cover 3 _ (fun t _ => flushed1 V c t) cover1

/-! ## Region 2: `(a + b) · W + b'` -/

theorem idxOut2 : ∀ t : Fin cfg2.N, win2_4.index t (0 : Fin 2) = t.val ∧ win2_4.index t (1 : Fin 2) = 0 :=
  (by decide +kernel : ∀ t : Fin grid2.N, _)
theorem idxIn2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- What point `t` writes back is block `t` of `(a + b) · W + b'` of the arrays as the call finds them. -/
theorem flushed2 (c : Dev nD) (t : Fin cfg2.N) :
    (dat2 V c).flushed 4 t = ((cfg2.win 4).blk t).view.read (Elt Ideal)
      (addRow (prod (addRow (V c main_v58) (V c main_v59)) (V c main_arg6)) (V c main_v60)) := by
  show (cfg2.win 4).cut (grid2.coords t) ((dat2 V c).after 4 t) = _
  rw [after2_4]
  unfold out2_4
  rw [View.canon_unit_zero hz]
  simp only [View.ld_unit_zero (S := S5000x64) hz, View.ld_unit_zero (S := S1x64) hz, View.ld_unit_zero (S := S64x64) hz]
  rw [pay2]
  obtain ⟨e0, e1, e2, e3, e6, e7, e8, e9⟩ := idxIn2 t
  obtain ⟨e4, e5⟩ := idxOut2 t
  funext j
  refine layer2_block (V c main_v58) (V c main_v59) (V c main_arg6) (V c main_v60) (iblk2 V c 0 t) (iblk2 V c 1 t) (iblk2 V c 2 t) (iblk2 V c 3 t) j (((cfg2.win 4).blk t).view.emb j) (fun k => ?_) (fun k => ?_) (fun k => ?_) ?_
  · show V c main_v58 (((cfg2.win 0).blk t).view.emb (ix2 (j 0) k)) = V c main_v58 (ix2 ((((cfg2.win 4).blk t).view.emb j) 0) k)
    refine congrArg _ (funext fun a => Fin.ext ?_)
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 64 + 1 * k.val = k.val; omega
  · show V c main_v59 (((cfg2.win 1).blk t).view.emb (ix2 (0 : Fin 1) k)) = V c main_v59 (ix2 (0 : Fin 1) k)
    refine congrArg _ (funext fun a => Fin.ext ?_)
    match a with
    | ⟨0, _⟩ => show win2_1.index t (0 : Fin 2) * 1 + 1 * 0 = 0; omega
    | ⟨1, _⟩ => show win2_1.index t (1 : Fin 2) * 64 + 1 * k.val = k.val; omega
  · show V c main_arg6 (((cfg2.win 2).blk t).view.emb (ix2 k (j 1))) = V c main_arg6 (ix2 k ((((cfg2.win 4).blk t).view.emb j) 1))
    refine congrArg _ (funext fun a => Fin.ext ?_)
    match a with
    | ⟨0, _⟩ => show win2_2.index t (0 : Fin 2) * 64 + 1 * k.val = k.val; omega
    | ⟨1, _⟩ => show win2_2.index t (1 : Fin 2) * 64 + 1 * (j 1).val = win2_4.index t (1 : Fin 2) * 64 + 1 * (j 1).val; omega
  · show V c main_v60 (((cfg2.win 3).blk t).view.emb (ix2 (0 : Fin 1) (j 1))) = V c main_v60 (ix2 (0 : Fin 1) ((((cfg2.win 4).blk t).view.emb j) 1))
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * (j 1).val = win2_4.index t (1 : Fin 2) * 64 + 1 * (j 1).val; omega

/-- An index of the output array is in point `t`'s block iff each coordinate is in the block's range. -/
theorem mem_blk2 (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v61).slice (win2_4.rect t)).set ↔ _
  rw [View.set_slice_whole, Rect.mem_set_unit]
  exact Iff.rfl

/-- Row `r` lies in the block of point `r / 5000`. -/
theorem cover2 (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  have hN : grid2.N = 10 := N_2
  have ht : (i 0).val / 5000 < grid2.N := by rw [hN]; omega
  have e4 : win2_4.index ⟨(i 0).val / 5000, ht⟩ (0 : Fin 2) = (i 0).val / 5000 := (idxOut2 ⟨(i 0).val / 5000, ht⟩).1
  have e5 : win2_4.index ⟨(i 0).val / 5000, ht⟩ (1 : Fin 2) = 0 := (idxOut2 ⟨(i 0).val / 5000, ht⟩).2
  refine ⟨⟨(i 0).val / 5000, ht⟩, flush2_4 _, ?_⟩
  rw [mem_blk2]
  intro a
  match a with
  | ⟨0, _⟩ => show win2_4.index ⟨(i 0).val / 5000, ht⟩ (0 : Fin 2) * 5000 ≤ (i 0).val ∧ (i 0).val < win2_4.index ⟨(i 0).val / 5000, ht⟩ (0 : Fin 2) * 5000 + 5000; omega
  | ⟨1, _⟩ => show win2_4.index ⟨(i 0).val / 5000, ht⟩ (1 : Fin 2) * 64 ≤ (i 1).val ∧ (i 1).val < win2_4.index ⟨(i 0).val / 5000, ht⟩ (1 : Fin 2) * 64 + 64; omega

/-- The third call's output array. -/
theorem final2 (c : Dev nD) : (dat2 V c).arrAt 4 cfg2.N
    = addRow (prod (addRow (V c main_v58) (V c main_v59)) (V c main_arg6)) (V c main_v60) :=
  (dat2 V c).arrAt_eq_of_cover 4 _ (fun t _ => flushed2 V c t) cover2

end Cert.KernelValue

end
-- ==== Proof.HostSpec.lean ====
/-
  The graph side of the network, as closed definitions over the extended reals. From the edge list `e`
  (two rows of 800000 node numbers) the program forms the sources and targets of 850000 edges (the given ones,
  then one self loop per node), each node's in-degree `deg` by a scatter-add of ones, `dinv = deg^(-1/2)` where
  the degree is positive and zero elsewhere, and the edge weight `nrm = dinv[src] · dinv[dst]`. The aggregation
  `agg e h` gathers row `src` of `h` for every edge, scales it by the edge's weight, and scatter-adds the rows
  into their targets. Both programs compute exactly these terms; nothing in the proof looks inside the gathers
  and scatters, so they stay closed here.
-/
import proofs.«162209_j45569603010897_1_alg».proof.KernelIdeal
import proofs.«162209_j45569603010897_1_alg».proof.Proof.Gen.KernelIdeal
import proofs.«162209_j45569603010897_1_alg».proof.Proof.LibLayers
import Idealize.ShloMosaic.PureOps.Ideal

noncomputable section

namespace Cert.Gcn

open Cert.KernelIdeal Cert.KernelIdeal.Gen Idealize.ShloMosaic

/-- An integer array of shape `s`, and a float array of shape `s` over the extended reals. -/
abbrev I32 (s : Shape) := IVec s 32
abbrev F32 (s : Shape) := FVec Ideal s .f32

/-- Row `r` of the edge list followed by the node numbers 0 … 49999 (the self loops). -/
def ends (r : Fin 2 → Nat) (hs : S2x800000.Slices r S1x800000) (e : I32 S2x800000) : I32 S850000 :=
  concatenate S850000 0
    [⟨S800000, shapeCast S800000 (extractStridedSlice S1x800000 r e hs) shapeCasts_S1x800000_S800000⟩,
     ⟨S50000, iotaInDim S50000 32 0⟩] concatenates_S800000_S50000_S850000_d0

/-- The edges' sources and targets. -/
def src (e : I32 S2x800000) : I32 S850000 := ends ![0, 0] slices_S2x800000_S1x800000_0_0 e
def dst (e : I32 S2x800000) : I32 S850000 := ends ![1, 0] slices_S2x800000_S1x800000_1_0 e

/-- A column of node numbers ready for a gather: a negative number counts from the end. -/
def wrap (s : I32 S850000) : I32 S850000x1 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- A column of node numbers as a scatter takes them. -/
def col (s : I32 S850000) : I32 S850000x1 := broadcastInDim S850000x1 ![0] bcast_S850000_S850000x1_0 s

/-- Each node's in-degree, self loop included. -/
def deg (d : I32 S850000) : F32 S50000 :=
  Host.scatterAdd (F := Ideal) scatter_S50000_S850000x1_S850000_n_0_0_1
    (broadcastInDim S50000 ![] bcast_S_S50000 (constant (F := Ideal) S_ .f32 0x00000000#32)) (col d)
    (broadcastInDim S850000 ![] bcast_S_S850000 (constant (F := Ideal) S_ .f32 0x3F800000#32))

/-- A choice between a vector and a splat of a scalar, by a mask (jnp.where with a scalar last operand). -/
def whereOf (g : IVec S50000 1) (r : F32 S50000) (z : F32 S_) : F32 S50000 :=
  select g r (broadcastInDim S50000 ![] bcast_S_S50000 (id z))

/-- `deg^(-1/2)` where the degree is positive, zero elsewhere. -/
def dinv (d : I32 S850000) : F32 S50000 :=
  whereOf (cmpf (F := Ideal) .ogt (deg d) (broadcastInDim S50000 ![] bcast_S_S50000 (constant (F := Ideal) S_ .f32 0x00000000#32)))
    (Host.rsqrt (F := Ideal) (deg d)) (constant (F := Ideal) S_ .f32 0x00000000#32)

/-- The edge weights from a per-node factor and the edges' two ends. -/
def nrmFrom (v : F32 S50000) (s d : I32 S850000) : F32 S850000 :=
  mulf (Host.gather gather_S50000_S850000x1_S850000_n_0_n_n_0_1_1 v (wrap s))
    (Host.gather gather_S50000_S850000x1_S850000_n_0_n_n_0_1_1 v (wrap d))

/-- The edge weights from the edges' two ends. -/
def nrmOf (s d : I32 S850000) : F32 S850000 := nrmFrom (dinv d) s d

/-- The aggregation from the edges' ends and weights: gather the source rows, scale, scatter-add into the targets. -/
def aggOf (s d : I32 S850000) (n : F32 S850000) (h : F32 S50000x64) : F32 S50000x64 :=
  Host.scatterAdd (F := Ideal) scatter_S50000x64_S850000x1_S850000x64_1_0_0_1
    (broadcastInDim S50000x64 ![] bcast_S_S50000x64 (constant (F := Ideal) S_ .f32 0x00000000#32)) (col d)
    (mulf (Host.gather gather_S50000x64_S850000x1_S850000x64_1_0_n_n_0_1_164 h (wrap s))
      (broadcastInDim S850000x64 ![0, 1] bcast_S850000x1_S850000x64_0_1
        (broadcastInDim S850000x1 ![0] bcast_S850000_S850000x1_0 n)))

/-- The edge weights and the aggregation as functions of the edge list. -/
def nrm (e : I32 S2x800000) : F32 S850000 := nrmOf (src e) (dst e)
def agg (e : I32 S2x800000) (h : F32 S50000x64) : F32 S50000x64 := aggOf (src e) (dst e) (nrm e) h

/-- A bias vector as the one-row matrix a kernel is handed. -/
def row (b : F32 S64) : F32 S1x64 := shapeCast S1x64 b shapeCasts_S64_S1x64

/-- The whole network: two graph convolutions (the first followed by the rectifier) and a last dense layer. Each
    convolution multiplies by its weights, aggregates over the edges, and adds its bias; the kernel applies each bias
    (and the rectifier) together with the NEXT product, which is the same composition. -/
def model (x : F32 S50000x128) (e : I32 S2x800000) (W1 : F32 S128x64) (b1 : F32 S64) (W2 : F32 S64x64) (b2 : F32 S64)
    (Wfc : F32 S64x64) (bfc : F32 S64) : F32 S50000x64 :=
  Layers.addRow (Layers.prod (Layers.addRow (agg e (Layers.prod (Layers.relu (Layers.addRow (agg e (Layers.prod x W1)) (row b1))) W2)) (row b2)) Wfc) (row bfc)

end Cert.Gcn

end
-- ==== Proof.KernelHost.lean ====
/-
  The buffers between the three pallas_calls. The run's buffer contents at each boundary are a fold: a stretch of host
  operations rewrites the buffers it writes, a pallas_call replaces its output array by what its ten write-backs
  leave and keeps everything else. Read from the launch memory `m`: before the first call the edges' ends and weights
  are `src e`, `dst e`, `nrm e` of the edge list and every argument is still in place; the first call leaves
  `x · W1`; the next stretch aggregates it over the edges and shapes the bias into a row; the second call leaves
  `relu (· + b1) · W2`; the same stretch again; the third call leaves `(· + b2) · Wfc + bfc`. Composed, the result
  buffer ends holding `Gcn.model` of the eight arguments.
-/
import proofs.«162209_j45569603010897_1_alg».proof.Proof.Gen.KernelIdeal.Frame
import proofs.«162209_j45569603010897_1_alg».proof.Proof.Blocks
import proofs.«162209_j45569603010897_1_alg».proof.Proof.HostSpec
import Idealize.ShloMosaic.Lib.StableHlo.Run

set_option maxRecDepth 16384

noncomputable section

namespace Cert.KernelValue

open Cert.KernelIdeal Cert.KernelIdeal.Gen Idealize.ShloMosaic Idealize.ShloMosaic.TcCoe Idealize.SL.Sem
open Cert.Layers Cert.Gcn

/-! ## Each stretch of host operations, from any buffer contents `W` -/

section Stretches

variable (W : Valuation τ sig (Elt Ideal))

/-- Before the first call, first stretch: the edges' sources and targets from the edge list; the in-degree's
    comparison with zero and its inverse square root, in terms of the targets as this stretch leaves them. -/
theorem o0_v5 : StableHlo.after hostOps0 W (Proc.devRef .tc main_v5) = src (W (Proc.devRef .tc main_arg1)) := by
  after_results_simp; rfl
theorem o0_v6 : StableHlo.after hostOps0 W (Proc.devRef .tc main_v6) = dst (W (Proc.devRef .tc main_arg1)) := by
  after_results_simp; rfl
theorem o0_v12 : StableHlo.after hostOps0 W (Proc.devRef .tc main_v12)
    = cmpf (F := Ideal) .ogt (deg (StableHlo.after hostOps0 W (Proc.devRef .tc main_v6))) (broadcastInDim S50000 ![] bcast_S_S50000 (constant (F := Ideal) S_ .f32 0x00000000#32)) := by
  after_results_simp; rfl
theorem o0_v13 : StableHlo.after hostOps0 W (Proc.devRef .tc main_v13) = Host.rsqrt (F := Ideal) (deg (StableHlo.after hostOps0 W (Proc.devRef .tc main_v6))) := by
  after_results_simp; rfl
theorem o0_cst_2 : StableHlo.after hostOps0 W (Proc.devRef .tc main_cst_2) = constant (F := Ideal) S_ .f32 0x00000000#32 := by
  after_results_simp
theorem o0_arg0 : StableHlo.after hostOps0 W (Proc.devRef .tc main_arg0) = W (Proc.devRef .tc main_arg0) := by
  after_results_simp
theorem o0_arg2 : StableHlo.after hostOps0 W (Proc.devRef .tc main_arg2) = W (Proc.devRef .tc main_arg2) := by
  after_results_simp
theorem o0_arg3 : StableHlo.after hostOps0 W (Proc.devRef .tc main_arg3) = W (Proc.devRef .tc main_arg3) := by
  after_results_simp
theorem o0_arg4 : StableHlo.after hostOps0 W (Proc.devRef .tc main_arg4) = W (Proc.devRef .tc main_arg4) := by
  after_results_simp
theorem o0_arg5 : StableHlo.after hostOps0 W (Proc.devRef .tc main_arg5) = W (Proc.devRef .tc main_arg5) := by
  after_results_simp
theorem o0_arg6 : StableHlo.after hostOps0 W (Proc.devRef .tc main_arg6) = W (Proc.devRef .tc main_arg6) := by
  after_results_simp
theorem o0_arg7 : StableHlo.after hostOps0 W (Proc.devRef .tc main_arg7) = W (Proc.devRef .tc main_arg7) := by
  after_results_simp

/-- Second stretch (the outlined `where`): the choice between the inverse square root and zero. -/
theorem o1_v14 : StableHlo.after hostOps0_1 W (Proc.devRef .tc main_v14)
    = whereOf (W (Proc.devRef .tc main_v12)) (W (Proc.devRef .tc main_v13)) (W (Proc.devRef .tc main_cst_2)) := by
  after_results_simp
  simp only [cast_eq]
  rfl
theorem o1_v5 : StableHlo.after hostOps0_1 W (Proc.devRef .tc main_v5) = W (Proc.devRef .tc main_v5) := by
  after_results_simp
theorem o1_v6 : StableHlo.after hostOps0_1 W (Proc.devRef .tc main_v6) = W (Proc.devRef .tc main_v6) := by
  after_results_simp
theorem o1_arg0 : StableHlo.after hostOps0_1 W (Proc.devRef .tc main_arg0) = W (Proc.devRef .tc main_arg0) := by
  after_results_simp
theorem o1_arg2 : StableHlo.after hostOps0_1 W (Proc.devRef .tc main_arg2) = W (Proc.devRef .tc main_arg2) := by
  after_results_simp
theorem o1_arg3 : StableHlo.after hostOps0_1 W (Proc.devRef .tc main_arg3) = W (Proc.devRef .tc main_arg3) := by
  after_results_simp
theorem o1_arg4 : StableHlo.after hostOps0_1 W (Proc.devRef .tc main_arg4) = W (Proc.devRef .tc main_arg4) := by
  after_results_simp
theorem o1_arg5 : StableHlo.after hostOps0_1 W (Proc.devRef .tc main_arg5) = W (Proc.devRef .tc main_arg5) := by
  after_results_simp
theorem o1_arg6 : StableHlo.after hostOps0_1 W (Proc.devRef .tc main_arg6) = W (Proc.devRef .tc main_arg6) := by
  after_results_simp
theorem o1_arg7 : StableHlo.after hostOps0_1 W (Proc.devRef .tc main_arg7) = W (Proc.devRef .tc main_arg7) := by
  after_results_simp

/-- Third stretch: the edge weights from the per-node factor and the edges' ends. -/
theorem o2_v29 : StableHlo.after hostOps0_2 W (Proc.devRef .tc main_v29)
    = nrmFrom (W (Proc.devRef .tc main_v14)) (W (Proc.devRef .tc main_v5)) (W (Proc.devRef .tc main_v6)) := by
  after_results_simp; rfl
theorem o2_v5 : StableHlo.after hostOps0_2 W (Proc.devRef .tc main_v5) = W (Proc.devRef .tc main_v5) := by
  after_results_simp
theorem o2_v6 : StableHlo.after hostOps0_2 W (Proc.devRef .tc main_v6) = W (Proc.devRef .tc main_v6) := by
  after_results_simp
theorem o2_arg0 : StableHlo.after hostOps0_2 W (Proc.devRef .tc main_arg0) = W (Proc.devRef .tc main_arg0) := by
  after_results_simp
theorem o2_arg2 : StableHlo.after hostOps0_2 W (Proc.devRef .tc main_arg2) = W (Proc.devRef .tc main_arg2) := by
  after_results_simp
theorem o2_arg3 : StableHlo.after hostOps0_2 W (Proc.devRef .tc main_arg3) = W (Proc.devRef .tc main_arg3) := by
  after_results_simp
theorem o2_arg4 : StableHlo.after hostOps0_2 W (Proc.devRef .tc main_arg4) = W (Proc.devRef .tc main_arg4) := by
  after_results_simp
theorem o2_arg5 : StableHlo.after hostOps0_2 W (Proc.devRef .tc main_arg5) = W (Proc.devRef .tc main_arg5) := by
  after_results_simp
theorem o2_arg6 : StableHlo.after hostOps0_2 W (Proc.devRef .tc main_arg6) = W (Proc.devRef .tc main_arg6) := by
  after_results_simp
theorem o2_arg7 : StableHlo.after hostOps0_2 W (Proc.devRef .tc main_arg7) = W (Proc.devRef .tc main_arg7) := by
  after_results_simp

/-- Between the first and second call: the aggregation of the first call's output, and the first bias as a row. -/
theorem s1_v43 : StableHlo.after hostOps1 W (Proc.devRef .tc main_v43)
    = aggOf (W (Proc.devRef .tc main_v5)) (W (Proc.devRef .tc main_v6)) (W (Proc.devRef .tc main_v29)) (W (Proc.devRef .tc main_v30)) := by
  after_results_simp; rfl
theorem s1_v44 : StableHlo.after hostOps1 W (Proc.devRef .tc main_v44) = row (W (Proc.devRef .tc main_arg3)) := by
  after_results_simp; rfl
theorem s1_v5 : StableHlo.after hostOps1 W (Proc.devRef .tc main_v5) = W (Proc.devRef .tc main_v5) := by
  after_results_simp
theorem s1_v6 : StableHlo.after hostOps1 W (Proc.devRef .tc main_v6) = W (Proc.devRef .tc main_v6) := by
  after_results_simp
theorem s1_v29 : StableHlo.after hostOps1 W (Proc.devRef .tc main_v29) = W (Proc.devRef .tc main_v29) := by
  after_results_simp
theorem s1_arg4 : StableHlo.after hostOps1 W (Proc.devRef .tc main_arg4) = W (Proc.devRef .tc main_arg4) := by
  after_results_simp
theorem s1_arg5 : StableHlo.after hostOps1 W (Proc.devRef .tc main_arg5) = W (Proc.devRef .tc main_arg5) := by
  after_results_simp
theorem s1_arg6 : StableHlo.after hostOps1 W (Proc.devRef .tc main_arg6) = W (Proc.devRef .tc main_arg6) := by
  after_results_simp
theorem s1_arg7 : StableHlo.after hostOps1 W (Proc.devRef .tc main_arg7) = W (Proc.devRef .tc main_arg7) := by
  after_results_simp

/-- Between the second and third call: the aggregation of the second call's output, and the last two biases as rows. -/
theorem s2_v58 : StableHlo.after hostOps2 W (Proc.devRef .tc main_v58)
    = aggOf (W (Proc.devRef .tc main_v5)) (W (Proc.devRef .tc main_v6)) (W (Proc.devRef .tc main_v29)) (W (Proc.devRef .tc main_v45)) := by
  after_results_simp; rfl
theorem s2_v59 : StableHlo.after hostOps2 W (Proc.devRef .tc main_v59) = row (W (Proc.devRef .tc main_arg5)) := by
  after_results_simp; rfl
theorem s2_v60 : StableHlo.after hostOps2 W (Proc.devRef .tc main_v60) = row (W (Proc.devRef .tc main_arg7)) := by
  after_results_simp; rfl
theorem s2_arg6 : StableHlo.after hostOps2 W (Proc.devRef .tc main_arg6) = W (Proc.devRef .tc main_arg6) := by
  after_results_simp

end Stretches

/-! ## The boundaries of the run, read from the launch memory -/

variable (m : (ℓ : Loc nD τ sig) → Buf (Elt Ideal) ℓ) (ρ : Dev nD → PrngReg) (c : Dev nD)

/-! ### At the first call's entry -/

theorem X1_v6 : (StableHlo.after hostOps0 (W0 m ρ c)) (Proc.devRef .tc main_v6) = dst (m ((c : Thread nD τ).loc main_arg1)) := o0_v6 (W0 m ρ c)
theorem X1_v5 : (StableHlo.after hostOps0 (W0 m ρ c)) (Proc.devRef .tc main_v5) = src (m ((c : Thread nD τ).loc main_arg1)) := o0_v5 (W0 m ρ c)

theorem X2_v14 : (StableHlo.after hostOps0_1 (StableHlo.after hostOps0 (W0 m ρ c))) (Proc.devRef .tc main_v14) = dinv (dst (m ((c : Thread nD τ).loc main_arg1))) := by
  refine (o1_v14 (StableHlo.after hostOps0 (W0 m ρ c))).trans ?_
  rw [o0_v12, o0_v13, o0_cst_2, X1_v6]
  rfl
theorem X2_v5 : (StableHlo.after hostOps0_1 (StableHlo.after hostOps0 (W0 m ρ c))) (Proc.devRef .tc main_v5) = src (m ((c : Thread nD τ).loc main_arg1)) := (o1_v5 (StableHlo.after hostOps0 (W0 m ρ c))).trans (X1_v5 m ρ c)
theorem X2_v6 : (StableHlo.after hostOps0_1 (StableHlo.after hostOps0 (W0 m ρ c))) (Proc.devRef .tc main_v6) = dst (m ((c : Thread nD τ).loc main_arg1)) := (o1_v6 (StableHlo.after hostOps0 (W0 m ρ c))).trans (X1_v6 m ρ c)

theorem W3_v5 : W3 m ρ c (Proc.devRef .tc main_v5) = src (m ((c : Thread nD τ).loc main_arg1)) := (o2_v5 (StableHlo.after hostOps0_1 (StableHlo.after hostOps0 (W0 m ρ c)))).trans (X2_v5 m ρ c)
theorem W3_v6 : W3 m ρ c (Proc.devRef .tc main_v6) = dst (m ((c : Thread nD τ).loc main_arg1)) := (o2_v6 (StableHlo.after hostOps0_1 (StableHlo.after hostOps0 (W0 m ρ c)))).trans (X2_v6 m ρ c)
theorem W3_v29 : W3 m ρ c (Proc.devRef .tc main_v29) = nrm (m ((c : Thread nD τ).loc main_arg1)) := by
  refine (o2_v29 (StableHlo.after hostOps0_1 (StableHlo.after hostOps0 (W0 m ρ c)))).trans ?_
  rw [X2_v14, X2_v5, X2_v6]
  rfl
theorem W3_arg0 : W3 m ρ c (Proc.devRef .tc main_arg0) = (m ((c : Thread nD τ).loc main_arg0)) :=
  (o2_arg0 (StableHlo.after hostOps0_1 (StableHlo.after hostOps0 (W0 m ρ c)))).trans ((o1_arg0 (StableHlo.after hostOps0 (W0 m ρ c))).trans (o0_arg0 (W0 m ρ c)))
theorem W3_arg2 : W3 m ρ c (Proc.devRef .tc main_arg2) = (m ((c : Thread nD τ).loc main_arg2)) :=
  (o2_arg2 (StableHlo.after hostOps0_1 (StableHlo.after hostOps0 (W0 m ρ c)))).trans ((o1_arg2 (StableHlo.after hostOps0 (W0 m ρ c))).trans (o0_arg2 (W0 m ρ c)))
theorem W3_arg3 : W3 m ρ c (Proc.devRef .tc main_arg3) = (m ((c : Thread nD τ).loc main_arg3)) :=
  (o2_arg3 (StableHlo.after hostOps0_1 (StableHlo.after hostOps0 (W0 m ρ c)))).trans ((o1_arg3 (StableHlo.after hostOps0 (W0 m ρ c))).trans (o0_arg3 (W0 m ρ c)))
theorem W3_arg4 : W3 m ρ c (Proc.devRef .tc main_arg4) = (m ((c : Thread nD τ).loc main_arg4)) :=
  (o2_arg4 (StableHlo.after hostOps0_1 (StableHlo.after hostOps0 (W0 m ρ c)))).trans ((o1_arg4 (StableHlo.after hostOps0 (W0 m ρ c))).trans (o0_arg4 (W0 m ρ c)))
theorem W3_arg5 : W3 m ρ c (Proc.devRef .tc main_arg5) = (m ((c : Thread nD τ).loc main_arg5)) :=
  (o2_arg5 (StableHlo.after hostOps0_1 (StableHlo.after hostOps0 (W0 m ρ c)))).trans ((o1_arg5 (StableHlo.after hostOps0 (W0 m ρ c))).trans (o0_arg5 (W0 m ρ c)))
theorem W3_arg6 : W3 m ρ c (Proc.devRef .tc main_arg6) = (m ((c : Thread nD τ).loc main_arg6)) :=
  (o2_arg6 (StableHlo.after hostOps0_1 (StableHlo.after hostOps0 (W0 m ρ c)))).trans ((o1_arg6 (StableHlo.after hostOps0 (W0 m ρ c))).trans (o0_arg6 (W0 m ρ c)))
theorem W3_arg7 : W3 m ρ c (Proc.devRef .tc main_arg7) = (m ((c : Thread nD τ).loc main_arg7)) :=
  (o2_arg7 (StableHlo.after hostOps0_1 (StableHlo.after hostOps0 (W0 m ρ c)))).trans ((o1_arg7 (StableHlo.after hostOps0 (W0 m ρ c))).trans (o0_arg7 (W0 m ρ c)))

/-! ### At the first call's exit -/
theorem W4_v30 : W4 m ρ c (Proc.devRef .tc main_v30) = prod (m ((c : Thread nD τ).loc main_arg0)) (m ((c : Thread nD τ).loc main_arg2)) := by
  refine (W4_arr m ρ c 2).trans ((final0 (V3 m ρ) c).trans ?_)
  show prod (W3 m ρ c (Proc.devRef .tc main_arg0)) (W3 m ρ c (Proc.devRef .tc main_arg2)) = _
  rw [W3_arg0, W3_arg2]
theorem W4_v5 : W4 m ρ c (Proc.devRef .tc main_v5) = src (m ((c : Thread nD τ).loc main_arg1)) :=
  (W4_of_ne m ρ c main_v5 (by decide)).trans (W3_v5 m ρ c)
theorem W4_v6 : W4 m ρ c (Proc.devRef .tc main_v6) = dst (m ((c : Thread nD τ).loc main_arg1)) :=
  (W4_of_ne m ρ c main_v6 (by decide)).trans (W3_v6 m ρ c)
theorem W4_v29 : W4 m ρ c (Proc.devRef .tc main_v29) = nrm (m ((c : Thread nD τ).loc main_arg1)) :=
  (W4_of_ne m ρ c main_v29 (by decide)).trans (W3_v29 m ρ c)
theorem W4_arg3 : W4 m ρ c (Proc.devRef .tc main_arg3) = (m ((c : Thread nD τ).loc main_arg3)) :=
  (W4_of_ne m ρ c main_arg3 (by decide)).trans (W3_arg3 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)
theorem W4_arg6 : W4 m ρ c (Proc.devRef .tc main_arg6) = (m ((c : Thread nD τ).loc main_arg6)) :=
  (W4_of_ne m ρ c main_arg6 (by decide)).trans (W3_arg6 m ρ c)
theorem W4_arg7 : W4 m ρ c (Proc.devRef .tc main_arg7) = (m ((c : Thread nD τ).loc main_arg7)) :=
  (W4_of_ne m ρ c main_arg7 (by decide)).trans (W3_arg7 m ρ c)

/-! ### At the second call's entry -/
theorem W5_v43 : W5 m ρ c (Proc.devRef .tc main_v43) = agg (m ((c : Thread nD τ).loc main_arg1)) (prod (m ((c : Thread nD τ).loc main_arg0)) (m ((c : Thread nD τ).loc main_arg2))) := by
  refine (s1_v43 (W4 m ρ c)).trans ?_
  rw [W4_v5, W4_v6, W4_v29, W4_v30]
  rfl
theorem W5_v44 : W5 m ρ c (Proc.devRef .tc main_v44) = row (m ((c : Thread nD τ).loc main_arg3)) := by
  refine (s1_v44 (W4 m ρ c)).trans ?_
  rw [W4_arg3]
theorem W5_v5 : W5 m ρ c (Proc.devRef .tc main_v5) = src (m ((c : Thread nD τ).loc main_arg1)) :=
  (s1_v5 (W4 m ρ c)).trans (W4_v5 m ρ c)
theorem W5_v6 : W5 m ρ c (Proc.devRef .tc main_v6) = dst (m ((c : Thread nD τ).loc main_arg1)) :=
  (s1_v6 (W4 m ρ c)).trans (W4_v6 m ρ c)
theorem W5_v29 : W5 m ρ c (Proc.devRef .tc main_v29) = nrm (m ((c : Thread nD τ).loc main_arg1)) :=
  (s1_v29 (W4 m ρ c)).trans (W4_v29 m ρ c)
theorem W5_arg4 : W5 m ρ c (Proc.devRef .tc main_arg4) = (m ((c : Thread nD τ).loc main_arg4)) :=
  (s1_arg4 (W4 m ρ c)).trans (W4_arg4 m ρ c)
theorem W5_arg5 : W5 m ρ c (Proc.devRef .tc main_arg5) = (m ((c : Thread nD τ).loc main_arg5)) :=
  (s1_arg5 (W4 m ρ c)).trans (W4_arg5 m ρ c)
theorem W5_arg6 : W5 m ρ c (Proc.devRef .tc main_arg6) = (m ((c : Thread nD τ).loc main_arg6)) :=
  (s1_arg6 (W4 m ρ c)).trans (W4_arg6 m ρ c)
theorem W5_arg7 : W5 m ρ c (Proc.devRef .tc main_arg7) = (m ((c : Thread nD τ).loc main_arg7)) :=
  (s1_arg7 (W4 m ρ c)).trans (W4_arg7 m ρ c)

/-- The first convolution's output after the rectifier's layer: what the second call leaves. -/
def h2 (x : F32 S50000x128) (e : I32 S2x800000) (W1 : F32 S128x64) (b1 : F32 S64) (W2 : F32 S64x64) : F32 S50000x64 :=
  prod (relu (addRow (agg e (prod x W1)) (row b1))) W2

/-! ### At the second call's exit -/
theorem W6_v45 : W6 m ρ c (Proc.devRef .tc main_v45) = h2 (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 3).trans ((final1 (V5 m ρ) c).trans ?_)
  show prod (relu (addRow (W5 m ρ c (Proc.devRef .tc main_v43)) (W5 m ρ c (Proc.devRef .tc main_v44)))) (W5 m ρ c (Proc.devRef .tc main_arg4)) = _
  rw [W5_v43, W5_v44, W5_arg4]
  rfl
theorem W6_v5 : W6 m ρ c (Proc.devRef .tc main_v5) = src (m ((c : Thread nD τ).loc main_arg1)) :=
  (W6_of_ne m ρ c main_v5 (by decide)).trans (W5_v5 m ρ c)
theorem W6_v6 : W6 m ρ c (Proc.devRef .tc main_v6) = dst (m ((c : Thread nD τ).loc main_arg1)) :=
  (W6_of_ne m ρ c main_v6 (by decide)).trans (W5_v6 m ρ c)
theorem W6_v29 : W6 m ρ c (Proc.devRef .tc main_v29) = nrm (m ((c : Thread nD τ).loc main_arg1)) :=
  (W6_of_ne m ρ c main_v29 (by decide)).trans (W5_v29 m ρ c)
theorem W6_arg5 : W6 m ρ c (Proc.devRef .tc main_arg5) = (m ((c : Thread nD τ).loc main_arg5)) :=
  (W6_of_ne m ρ c main_arg5 (by decide)).trans (W5_arg5 m ρ c)
theorem W6_arg6 : W6 m ρ c (Proc.devRef .tc main_arg6) = (m ((c : Thread nD τ).loc main_arg6)) :=
  (W6_of_ne m ρ c main_arg6 (by decide)).trans (W5_arg6 m ρ c)
theorem W6_arg7 : W6 m ρ c (Proc.devRef .tc main_arg7) = (m ((c : Thread nD τ).loc main_arg7)) :=
  (W6_of_ne m ρ c main_arg7 (by decide)).trans (W5_arg7 m ρ c)

/-! ### At the third call's entry -/
theorem W7_v58 : W7 m ρ c (Proc.devRef .tc main_v58)
    = agg (m ((c : Thread nD τ).loc main_arg1)) (h2 (m ((c : Thread nD τ).loc main_arg0)) (m ((c : Thread nD τ).loc main_arg1)) (m ((c : Thread nD τ).loc main_arg2)) (m ((c : Thread nD τ).loc main_arg3)) (m ((c : Thread nD τ).loc main_arg4))) := by
  refine (s2_v58 (W6 m ρ c)).trans ?_
  rw [W6_v5, W6_v6, W6_v29, W6_v45]
  rfl
theorem W7_v59 : W7 m ρ c (Proc.devRef .tc main_v59) = row (m ((c : Thread nD τ).loc main_arg5)) := by
  refine (s2_v59 (W6 m ρ c)).trans ?_
  rw [W6_arg5]
theorem W7_v60 : W7 m ρ c (Proc.devRef .tc main_v60) = row (m ((c : Thread nD τ).loc main_arg7)) := by
  refine (s2_v60 (W6 m ρ c)).trans ?_
  rw [W6_arg7]
theorem W7_arg6 : W7 m ρ c (Proc.devRef .tc main_arg6) = (m ((c : Thread nD τ).loc main_arg6)) :=
  (s2_arg6 (W6 m ρ c)).trans (W6_arg6 m ρ c)

/-! ### At the return -/

/-- What the result buffer holds when @main returns, as a function of the launch memory. -/
def result (m : (ℓ : Loc nD τ sig) → Buf (Elt Ideal) ℓ) (c : Dev nD) : Buf (Elt Ideal) ((c.tc : Thread nD τ).loc main_v61) :=
  model (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem W8_result : W8 m ρ c (Proc.devRef .tc main_v61) = result m c := by
  refine (W8_arr m ρ c 4).trans ((final2 (V7 m ρ) c).trans ?_)
  show addRow (prod (addRow (W7 m ρ c (Proc.devRef .tc main_v58)) (W7 m ρ c (Proc.devRef .tc main_v59))) (W7 m ρ c (Proc.devRef .tc main_arg6))) (W7 m ρ c (Proc.devRef .tc main_v60)) = _
  rw [W7_v58, W7_v59, W7_v60, W7_arg6]
  rfl

end Cert.KernelValue

end
-- ==== Proof.KernelRun.lean ====
/-
  The idealized kernel's run with its result named: every weakly fair execution of @main terminates, nothing
  faulting, the result buffer ends holding `result m c` — the network `Gcn.model` of the eight argument arrays as
  launched — and the arguments end unchanged. The run is @main's eight segments (host stretches and the three
  pallas_calls) from the launch to the return; the final thread state has every unscoped buffer at the last
  boundary's contents, and the result buffer's contents there are `KernelValue.W8_result`.
-/
import proofs.«162209_j45569603010897_1_alg».proof.Proof.Gen.KernelIdeal.Frame
import proofs.«162209_j45569603010897_1_alg».proof.Proof.KernelHost

set_option maxRecDepth 16384

noncomputable section

namespace Cert.KernelValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
theorem run : θ_run defs (onTc (τ := τ) (main (F := Ideal))) ⟨m, fun _ => 0, ρ⟩ (fun r => ∀ c : Dev nD,
      r.2.mem ((c.tc : Thread nD τ).loc main_v61) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v61 (by decide))).trans (W8_result m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelValue

end
-- ==== Proof.RefRun.lean ====
/-
  The reference program's run. Its @main is a straight line of 120 host operations (the two helper functions it
  calls are listed in place of their calls), so every weakly fair execution ends, and each buffer then holds what
  the operations, folded in order over the launch contents, leave in it. What the result buffer holds is read off
  that fold in the module that names the network's stages.
-/
import proofs.«162209_j45569603010897_1_alg».proof.ReferenceIdeal
import proofs.«162209_j45569603010897_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 120 operations, in order. -/
abbrev ops : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_arg0 main_arg2 main_v7 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v6 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select,
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v3 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v3 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v3 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v7 main_v36 main_v37 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x64 ![0, 1] bcast_S850000x1_S850000x64_0_1 : (⟨S850000x1, .f32⟩ : BufTy).Contents (Elt F) → (⟨S850000x64, .f32⟩ : BufTy).Contents (Elt F)),
    binary main_v37 main_v39 main_v40 (mulf : (⟨S850000x64, .f32⟩ : BufTy).Contents (Elt F) → (⟨S850000x64, .f32⟩ : BufTy).Contents (Elt F) → (⟨S850000x64, .f32⟩ : BufTy).Contents (Elt F)),
    nullary main_cst_8 (constant S_ .f32 0x00000000#32),
    unary main_cst_8 main_v41 (broadcastInDim S50000x64 ![] bcast_S_S50000x64 : (⟨S_, .f32⟩ : BufTy).Contents (Elt F) → (⟨S50000x64, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S50000x64 ![0, 1] bcast_S1x64_S50000x64_0_1 : (⟨S1x64, .f32⟩ : BufTy).Contents (Elt F) → (⟨S50000x64, .f32⟩ : BufTy).Contents (Elt F)),
    binary main_v43 main_v45 main_v46 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v46) (TRef.of (T := ⟨S50000x64, .f32⟩) main_call1_v0) (TRef.of (T := ⟨S50000x64, .f32⟩) main_v47) maximumf,
    binary main_v47 main_arg4 main_v48 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst_9 (constant S_ .f32 0x3F800000#32),
    unary main_cst_9 main_v49 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v50 (broadcastInDim S50000 ![] bcast_S_S50000 : (⟨S_, .f32⟩ : BufTy).Contents (Elt F) → (⟨S50000, .f32⟩ : BufTy).Contents (Elt F)),
    unary main_v6 main_v51 (broadcastInDim S850000x1 ![0] bcast_S850000_S850000x1_0 : (⟨S850000, .i32⟩ : BufTy).Contents (Elt F) → (⟨S850000x1, .i32⟩ : BufTy).Contents (Elt F)),
    ternary main_v50 main_v51 main_v49 main_v52 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v53 (broadcastInDim S50000 ![] bcast_S_S50000 : (⟨S_, .f32⟩ : BufTy).Contents (Elt F) → (⟨S50000, .f32⟩ : BufTy).Contents (Elt F)),
    binary main_v52 main_v53 main_v54 (cmpf .ogt : (⟨S50000, .f32⟩ : BufTy).Contents (Elt F) → (⟨S50000, .f32⟩ : BufTy).Contents (Elt F) → (⟨S50000, .i1⟩ : BufTy).Contents (Elt F)),
    unary main_v52 main_v55 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v54) (TRef.of (T := ⟨S50000, .f32⟩) main_v55) (TRef.of (T := ⟨S50000, .f32⟩) main_call2_v1) (TRef.of (T := ⟨S50000, .f32⟩) main_v56) select,
    nullary main_c_13 (constantI S_ 32 0#32),
    unary main_c_13 main_v57 (broadcastInDim S850000 ![] bcast_S_S850000 : (⟨S_, .i32⟩ : BufTy).Contents (Elt F) → (⟨S850000, .i32⟩ : BufTy).Contents (Elt F)),
    binary main_v3 main_v57 main_v58 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v59 (broadcastInDim S850000 ![] bcast_S_S850000 : (⟨S_, .i32⟩ : BufTy).Contents (Elt F) → (⟨S850000, .i32⟩ : BufTy).Contents (Elt F)),
    binary main_v3 main_v59 main_v60 (addi : (⟨S850000, .i32⟩ : BufTy).Contents (Elt F) → (⟨S850000, .i32⟩ : BufTy).Contents (Elt F) → (⟨S850000, .i32⟩ : BufTy).Contents (Elt F)),
    ternary main_v58 main_v60 main_v3 main_v61 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v61 main_v62 (broadcastInDim S850000x1 ![0] bcast_S850000_S850000x1_0 : (⟨S850000, .i32⟩ : BufTy).Contents (Elt F) → (⟨S850000x1, .i32⟩ : BufTy).Contents (Elt F)),
    binary main_v56 main_v62 main_v63 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v64 (broadcastInDim S850000 ![] bcast_S_S850000 : (⟨S_, .i32⟩ : BufTy).Contents (Elt F) → (⟨S850000, .i32⟩ : BufTy).Contents (Elt F)),
    binary main_v6 main_v64 main_v65 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v66 (broadcastInDim S850000 ![] bcast_S_S850000 : (⟨S_, .i32⟩ : BufTy).Contents (Elt F) → (⟨S850000, .i32⟩ : BufTy).Contents (Elt F)),
    binary main_v6 main_v66 main_v67 (addi : (⟨S850000, .i32⟩ : BufTy).Contents (Elt F) → (⟨S850000, .i32⟩ : BufTy).Contents (Elt F) → (⟨S850000, .i32⟩ : BufTy).Contents (Elt F)),
    ternary main_v65 main_v67 main_v6 main_v68 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v68 main_v69 (broadcastInDim S850000x1 ![0] bcast_S850000_S850000x1_0 : (⟨S850000, .i32⟩ : BufTy).Contents (Elt F) → (⟨S850000x1, .i32⟩ : BufTy).Contents (Elt F)),
    binary main_v56 main_v69 main_v70 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v63 main_v70 main_v71 (mulf : (⟨S850000, .f32⟩ : BufTy).Contents (Elt F) → (⟨S850000, .f32⟩ : BufTy).Contents (Elt F) → (⟨S850000, .f32⟩ : BufTy).Contents (Elt F)),
    nullary main_c_17 (constantI S_ 32 0#32),
    unary main_c_17 main_v72 (broadcastInDim S850000 ![] bcast_S_S850000 : (⟨S_, .i32⟩ : BufTy).Contents (Elt F) → (⟨S850000, .i32⟩ : BufTy).Contents (Elt F)),
    binary main_v3 main_v72 main_v73 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v74 (broadcastInDim S850000 ![] bcast_S_S850000 : (⟨S_, .i32⟩ : BufTy).Contents (Elt F) → (⟨S850000, .i32⟩ : BufTy).Contents (Elt F)),
    binary main_v3 main_v74 main_v75 (addi : (⟨S850000, .i32⟩ : BufTy).Contents (Elt F) → (⟨S850000, .i32⟩ : BufTy).Contents (Elt F) → (⟨S850000, .i32⟩ : BufTy).Contents (Elt F)),
    ternary main_v73 main_v75 main_v3 main_v76 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v76 main_v77 (broadcastInDim S850000x1 ![0] bcast_S850000_S850000x1_0 : (⟨S850000, .i32⟩ : BufTy).Contents (Elt F) → (⟨S850000x1, .i32⟩ : BufTy).Contents (Elt F)),
    binary main_v48 main_v77 main_v78 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v71 main_v79 (broadcastInDim S850000x1 ![0] bcast_S850000_S850000x1_0 : (⟨S850000, .f32⟩ : BufTy).Contents (Elt F) → (⟨S850000x1, .f32⟩ : BufTy).Contents (Elt F)),
    unary main_v79 main_v80 (broadcastInDim S850000x64 ![0, 1] bcast_S850000x1_S850000x64_0_1 : (⟨S850000x1, .f32⟩ : BufTy).Contents (Elt F) → (⟨S850000x64, .f32⟩ : BufTy).Contents (Elt F)),
    binary main_v78 main_v80 main_v81 (mulf : (⟨S850000x64, .f32⟩ : BufTy).Contents (Elt F) → (⟨S850000x64, .f32⟩ : BufTy).Contents (Elt F) → (⟨S850000x64, .f32⟩ : BufTy).Contents (Elt F)),
    nullary main_cst_19 (constant S_ .f32 0x00000000#32),
    unary main_cst_19 main_v82 (broadcastInDim S50000x64 ![] bcast_S_S50000x64 : (⟨S_, .f32⟩ : BufTy).Contents (Elt F) → (⟨S50000x64, .f32⟩ : BufTy).Contents (Elt F)),
    unary main_v6 main_v83 (broadcastInDim S850000x1 ![0] bcast_S850000_S850000x1_0 : (⟨S850000, .i32⟩ : BufTy).Contents (Elt F) → (⟨S850000x1, .i32⟩ : BufTy).Contents (Elt F)),
    ternary main_v82 main_v83 main_v81 main_v84 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg5 main_v85 (broadcastInDim S1x64 ![1] bcast_S64_S1x64_1 : (⟨S64, .f32⟩ : BufTy).Contents (Elt F) → (⟨S1x64, .f32⟩ : BufTy).Contents (Elt F)),
    unary main_v85 main_v86 (broadcastInDim S50000x64 ![0, 1] bcast_S1x64_S50000x64_0_1 : (⟨S1x64, .f32⟩ : BufTy).Contents (Elt F) → (⟨S50000x64, .f32⟩ : BufTy).Contents (Elt F)),
    binary main_v84 main_v86 main_v87 (addf : (⟨S50000x64, .f32⟩ : BufTy).Contents (Elt F) → (⟨S50000x64, .f32⟩ : BufTy).Contents (Elt F) → (⟨S50000x64, .f32⟩ : BufTy).Contents (Elt F)),
    binary main_v87 main_arg6 main_v88 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg7 main_v89 (broadcastInDim S1x64 ![1] bcast_S64_S1x64_1 : (⟨S64, .f32⟩ : BufTy).Contents (Elt F) → (⟨S1x64, .f32⟩ : BufTy).Contents (Elt F)),
    unary main_v89 main_v90 (broadcastInDim S50000x64 ![0, 1] bcast_S1x64_S50000x64_0_1 : (⟨S1x64, .f32⟩ : BufTy).Contents (Elt F) → (⟨S50000x64, .f32⟩ : BufTy).Contents (Elt F)),
    binary main_v88 main_v90 main_v91 (addf : (⟨S50000x64, .f32⟩ : BufTy).Contents (Elt F) → (⟨S50000x64, .f32⟩ : BufTy).Contents (Elt F) → (⟨S50000x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub ..⟩

/-- Every weakly fair execution of the reference terminates, and each buffer ends at the fold of the operations
    over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefValue

end
-- ==== Proof.RefValue.lean ====
/-
  What the reference leaves in its result buffer: the same network. Over the extended reals the host's
  `dot_general` at an entry is the inner product of a row with a column (`Layers.prod`), a bias vector broadcast to
  one row and then to every row is `Layers.addRow` of that row, and the maximum with a zero splat is
  `Layers.relu`. The edges' ends and weights and the two aggregations are, term for term, the definitions of
  `Gcn` (the reference forms the weights once per convolution, from the same edge list: the same term twice).
-/
import proofs.«162209_j45569603010897_1_alg».proof.Proof.RefRun
import proofs.«162209_j45569603010897_1_alg».proof.Proof.HostSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Layers

/-! ### The record `dot_S50000x128_S128x64_S50000x64_1_0_0_1_n_n`: rows × 128 times 128 × columns, one contracted axis -/

theorem r128_l0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem r128_l1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
theorem r128_r0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
theorem r128_r1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The sum over the record's contraction indices is the sum over `k : Fin 128` of the left factor at `(row, k)`
    times the right factor at `(k, column)`. -/
theorem r128_sum (l : S50000x128.Idx → EReal) (r : S128x64.Idx → EReal) (i : S50000x64.Idx) :
    (∑ q : dot_S50000x128_S128x64_S50000x64_1_0_0_1_n_n.contr.Idx, l (dot_S50000x128_S128x64_S50000x64_1_0_0_1_n_n.lhsIdx i q) * r (dot_S50000x128_S128x64_S50000x64_1_0_0_1_n_n.rhsIdx i q))
      = ∑ k : Fin 128, l (ix2 (i 0) k) * r (ix2 k (i 1)) := by
  rw [← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx i ((contrEquiv1 dot_S50000x128_S128x64_S50000x64_1_0_0_1_n_n 128 rfl rfl).symm k) = ix2 (i 0) k := funext fun a => Fin.ext (by
    match a with
    | ⟨0, _⟩ => exact r128_l0 _ _
    | ⟨1, _⟩ => exact (r128_l1 _ _).trans hk)
  have er : dot_S50000x128_S128x64_S50000x64_1_0_0_1_n_n.rhsIdx i ((contrEquiv1 dot_S50000x128_S128x64_S50000x64_1_0_0_1_n_n 128 rfl rfl).symm k) = ix2 k (i 1) := funext fun a => Fin.ext (by
    match a with
    | ⟨0, _⟩ => exact (r128_r0 _ _).trans hk
    | ⟨1, _⟩ => exact r128_r1 _ _)
  exact congrArg₂ (· * ·) (congrArg l el) (congrArg r er)

/-! ### The record `dot_S50000x64_S64x64_S50000x64_1_0_0_1_n_n`: rows × 64 times 64 × columns, one contracted axis -/

theorem r64_l0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl
theorem r64_l1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q
theorem r64_r0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q
theorem r64_r1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

/-- The sum over the record's contraction indices is the sum over `k : Fin 64` of the left factor at `(row, k)`
    times the right factor at `(k, column)`. -/
theorem r64_sum (l : S50000x64.Idx → EReal) (r : S64x64.Idx → EReal) (i : S50000x64.Idx) :
    (∑ q : dot_S50000x64_S64x64_S50000x64_1_0_0_1_n_n.contr.Idx, l (dot_S50000x64_S64x64_S50000x64_1_0_0_1_n_n.lhsIdx i q) * r (dot_S50000x64_S64x64_S50000x64_1_0_0_1_n_n.rhsIdx i q))
      = ∑ k : Fin 64, l (ix2 (i 0) k) * r (ix2 k (i 1)) := by
  rw [← Equiv.sum_comp (contrEquiv1 dot_S50000x64_S64x64_S50000x64_1_0_0_1_n_n 64 rfl rfl).symm]
  refine Finset.sum_congr rfl fun k _ => ?_
  have hk := contrEquiv1_symm_val dot_S50000x64_S64x64_S50000x64_1_0_0_1_n_n 64 rfl rfl k
  have el : dot_S50000x64_S64x64_S50000x64_1_0_0_1_n_n.lhsIdx i ((contrEquiv1 dot_S50000x64_S64x64_S50000x64_1_0_0_1_n_n 64 rfl rfl).symm k) = ix2 (i 0) k := funext fun a => Fin.ext (by
    match a with
    | ⟨0, _⟩ => exact r64_l0 _ _
    | ⟨1, _⟩ => exact (r64_l1 _ _).trans hk)
  have er : dot_S50000x64_S64x64_S50000x64_1_0_0_1_n_n.rhsIdx i ((contrEquiv1 dot_S50000x64_S64x64_S50000x64_1_0_0_1_n_n 64 rfl rfl).symm k) = ix2 k (i 1) := funext fun a => Fin.ext (by
    match a with
    | ⟨0, _⟩ => exact (r64_r0 _ _).trans hk
    | ⟨1, _⟩ => exact r64_r1 _ _)
  exact congrArg₂ (· * ·) (congrArg l el) (congrArg r er)

/-- The host's product of the features with the first weights. -/
theorem hostDot128 (x : FVec Ideal S50000x128 .f32) (W : FVec Ideal S128x64 .f32) :
    Host.dotGeneral (F := Ideal) (φ₁ := .f32) (φ₂ := .f32) dot_S50000x128_S128x64_S50000x64_1_0_0_1_n_n none x W = prod x W := by
  funext i
  simp only [Host.dotGeneral]
  refine (Ideal.dotGeneral_apply dot_S50000x128_S128x64_S50000x64_1_0_0_1_n_n none _ x W i).trans ?_
  exact r128_sum (fun j => x j) (fun j => W j) i

/-- The host's product with a 64 × 64 weight matrix. -/
theorem hostDot64 (x : FVec Ideal S50000x64 .f32) (W : FVec Ideal S64x64 .f32) :
    Host.dotGeneral (F := Ideal) (φ₁ := .f32) (φ₂ := .f32) dot_S50000x64_S64x64_S50000x64_1_0_0_1_n_n none x W = prod x W := by
  funext i
  simp only [Host.dotGeneral]
  refine (Ideal.dotGeneral_apply dot_S50000x64_S64x64_S50000x64_1_0_0_1_n_n none _ x W i).trans ?_
  exact r64_sum (fun j => x j) (fun j => W j) i

/-- A bias vector broadcast to one row, then to all 50000 rows, and added: the row added to every row. -/
theorem hostBias (y : FVec Ideal S50000x64 .f32) (b : FVec Ideal S64 .f32) (h1 h2) :
    addf y (broadcastInDim S50000x64 ![0, 1] h2 (broadcastInDim S1x64 ![1] h1 b)) = addRow y (Gcn.row b) := by
  funext i
  obtain ⟨p, q, rfl⟩ : ∃ (p : Fin 50000) (q : Fin 64), i = ix2 p q := ⟨i 0, i 1, eq_ix2 i⟩
  have e1 : broadcastInDim S50000x64 ![0, 1] h2 (broadcastInDim S1x64 ![1] h1 b) (ix2 p q)
      = broadcastInDim S1x64 ![1] h1 b (ix2 (0 : Fin 1) q) :=
    broadcastInDim_apply ![0, 1] h2 _ (ix2 p q) (ix2 (0 : Fin 1) q) (fun a => by
      match a with
      | ⟨0, _⟩ => rfl
      | ⟨1, _⟩ => rfl)
  have e2 : broadcastInDim S1x64 ![1] h1 b (ix2 (0 : Fin 1) q) = b (ix1 q) :=
    broadcastInDim_apply ![1] h1 b (ix2 (0 : Fin 1) q) (ix1 q) (fun a => by
      match a with
      | ⟨0, _⟩ => rfl)
  have e3 : Gcn.row b (ix2 (0 : Fin 1) q) = b (ix1 q) := shapeCast_a_1a_apply b _ (0 : Fin 1) q
  show y (ix2 p q) + _ = y (ix2 p q) + Gcn.row b (ix2 (0 : Fin 1) q)
  rw [e1, e2, e3]

/-- The maximum with a splat of zero: the rectifier. -/
theorem hostRelu (y : FVec Ideal S50000x64 .f32) (h0) :
    maximumf y (broadcastInDim S50000x64 ![] h0 (constant (F := Ideal) S_ .f32 0x00000000#32)) = relu y := by
  funext i
  have e : broadcastInDim S50000x64 ![] h0 (constant (F := Ideal) S_ .f32 0x00000000#32) i = constant (F := Ideal) S_ .f32 0x00000000#32 ix0 :=
    broadcastInDim_apply ![] h0 _ i ix0 (fun a => a.elim0)
  show max (y i) _ = max (y i) (Ideal.ofBits .f32 0x00000000#32)
  rw [e]
  rfl

/-- The reference's composed term from the edges' two ends, in the network's own words. -/
def refModelOf (s d : Gcn.I32 S850000) (x : Gcn.F32 S50000x128) (W1 : Gcn.F32 S128x64) (b1 : Gcn.F32 S64) (W2 : Gcn.F32 S64x64)
    (b2 : Gcn.F32 S64) (Wfc : Gcn.F32 S64x64) (bfc : Gcn.F32 S64) : Gcn.F32 S50000x64 :=
  addf (Host.dotGeneral (F := Ideal) (φ₁ := .f32) (φ₂ := .f32) dot_S50000x64_S64x64_S50000x64_1_0_0_1_n_n none
      (addf (Gcn.aggOf s d (Gcn.nrmOf s d) (Host.dotGeneral (F := Ideal) (φ₁ := .f32) (φ₂ := .f32) dot_S50000x64_S64x64_S50000x64_1_0_0_1_n_n none
          (maximumf (addf (Gcn.aggOf s d (Gcn.nrmOf s d) (Host.dotGeneral (F := Ideal) (φ₁ := .f32) (φ₂ := .f32) dot_S50000x128_S128x64_S50000x64_1_0_0_1_n_n none x W1))
              (broadcastInDim S50000x64 ![0, 1] bcast_S1x64_S50000x64_0_1 (broadcastInDim S1x64 ![1] bcast_S64_S1x64_1 b1)))
            (broadcastInDim S50000x64 ![] bcast_S_S50000x64 (constant (F := Ideal) S_ .f32 0x00000000#32))) W2))
        (broadcastInDim S50000x64 ![0, 1] bcast_S1x64_S50000x64_0_1 (broadcastInDim S1x64 ![1] bcast_S64_S1x64_1 b2))) Wfc)
    (broadcastInDim S50000x64 ![0, 1] bcast_S1x64_S50000x64_0_1 (broadcastInDim S1x64 ![1] bcast_S64_S1x64_1 bfc))

/-- The reference's term is the network. -/
theorem refModelOf_eq (x : Gcn.F32 S50000x128) (e : Gcn.I32 S2x800000) (W1 : Gcn.F32 S128x64) (b1 : Gcn.F32 S64) (W2 : Gcn.F32 S64x64)
    (b2 : Gcn.F32 S64) (Wfc : Gcn.F32 S64x64) (bfc : Gcn.F32 S64) :
    refModelOf (Gcn.src e) (Gcn.dst e) x W1 b1 W2 b2 Wfc bfc = Gcn.model x e W1 b1 W2 b2 Wfc bfc := by
  unfold refModelOf
  rw [hostDot128, hostBias, hostRelu, hostDot64, hostBias, hostDot64, hostBias]
  rfl

/-! ## The fold, stretch by stretch

The 120 operations, cut into eleven consecutive stretches at the stages of the network: the edges' ends (7
operations); the first product, the in-degree, its comparison with zero and its inverse square root (12); the
choice between the root and zero (3); the edge weights (19); the first aggregation and bias (19); the rectifier (3);
the second product (1); the in-degree, comparison and root again (11); the choice (3); the weights (19); the second
aggregation, bias, last product and bias (23). Run one after the other they are the whole fold; a buffer that a
stretch never writes is carried across it unchanged. -/

section Segments

variable {F : FTy → Type} [FloatOps F]

abbrev s1 : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

abbrev s2 : List (HloOp τ sig (Elt F)) :=
  [ binary main_arg0 main_arg2 main_v7 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v6 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32) ]

abbrev s3 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select ]

abbrev s4 : List (HloOp τ sig (Elt F)) :=
  [ nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v3 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v3 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v3 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)) ]

abbrev s5 : List (HloOp τ sig (Elt F)) :=
  [ nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v7 main_v36 main_v37 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x64 ![0, 1] bcast_S850000x1_S850000x64_0_1 : (⟨S850000x1, .f32⟩ : BufTy).Contents (Elt F) → (⟨S850000x64, .f32⟩ : BufTy).Contents (Elt F)),
    binary main_v37 main_v39 main_v40 (mulf : (⟨S850000x64, .f32⟩ : BufTy).Contents (Elt F) → (⟨S850000x64, .f32⟩ : BufTy).Contents (Elt F) → (⟨S850000x64, .f32⟩ : BufTy).Contents (Elt F)),
    nullary main_cst_8 (constant S_ .f32 0x00000000#32),
    unary main_cst_8 main_v41 (broadcastInDim S50000x64 ![] bcast_S_S50000x64 : (⟨S_, .f32⟩ : BufTy).Contents (Elt F) → (⟨S50000x64, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S50000x64 ![0, 1] bcast_S1x64_S50000x64_0_1 : (⟨S1x64, .f32⟩ : BufTy).Contents (Elt F) → (⟨S50000x64, .f32⟩ : BufTy).Contents (Elt F)),
    binary main_v43 main_v45 main_v46 (addf : (⟨S50000x64, .f32⟩ : BufTy).Contents (Elt F) → (⟨S50000x64, .f32⟩ : BufTy).Contents (Elt F) → (⟨S50000x64, .f32⟩ : BufTy).Contents (Elt F)) ]

abbrev s6 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v46) (TRef.of (T := ⟨S50000x64, .f32⟩) main_call1_v0) (TRef.of (T := ⟨S50000x64, .f32⟩) main_v47) maximumf ]

abbrev s7 : List (HloOp τ sig (Elt F)) :=
  [ binary main_v47 main_arg4 main_v48 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

abbrev s8 : List (HloOp τ sig (Elt F)) :=
  [ nullary main_cst_9 (constant S_ .f32 0x3F800000#32),
    unary main_cst_9 main_v49 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v50 (broadcastInDim S50000 ![] bcast_S_S50000 : (⟨S_, .f32⟩ : BufTy).Contents (Elt F) → (⟨S50000, .f32⟩ : BufTy).Contents (Elt F)),
    unary main_v6 main_v51 (broadcastInDim S850000x1 ![0] bcast_S850000_S850000x1_0 : (⟨S850000, .i32⟩ : BufTy).Contents (Elt F) → (⟨S850000x1, .i32⟩ : BufTy).Contents (Elt F)),
    ternary main_v50 main_v51 main_v49 main_v52 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v53 (broadcastInDim S50000 ![] bcast_S_S50000 : (⟨S_, .f32⟩ : BufTy).Contents (Elt F) → (⟨S50000, .f32⟩ : BufTy).Contents (Elt F)),
    binary main_v52 main_v53 main_v54 (cmpf .ogt : (⟨S50000, .f32⟩ : BufTy).Contents (Elt F) → (⟨S50000, .f32⟩ : BufTy).Contents (Elt F) → (⟨S50000, .i1⟩ : BufTy).Contents (Elt F)),
    unary main_v52 main_v55 (Host.rsqrt : (⟨S50000, .f32⟩ : BufTy).Contents (Elt F) → (⟨S50000, .f32⟩ : BufTy).Contents (Elt F)),
    nullary main_cst_12 (constant S_ .f32 0x00000000#32) ]

abbrev s9 : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v54) (TRef.of (T := ⟨S50000, .f32⟩) main_v55) (TRef.of (T := ⟨S50000, .f32⟩) main_call2_v1) (TRef.of (T := ⟨S50000, .f32⟩) main_v56) select ]

abbrev s10 : List (HloOp τ sig (Elt F)) :=
  [ nullary main_c_13 (constantI S_ 32 0#32),
    unary main_c_13 main_v57 (broadcastInDim S850000 ![] bcast_S_S850000 : (⟨S_, .i32⟩ : BufTy).Contents (Elt F) → (⟨S850000, .i32⟩ : BufTy).Contents (Elt F)),
    binary main_v3 main_v57 main_v58 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v59 (broadcastInDim S850000 ![] bcast_S_S850000 : (⟨S_, .i32⟩ : BufTy).Contents (Elt F) → (⟨S850000, .i32⟩ : BufTy).Contents (Elt F)),
    binary main_v3 main_v59 main_v60 (addi : (⟨S850000, .i32⟩ : BufTy).Contents (Elt F) → (⟨S850000, .i32⟩ : BufTy).Contents (Elt F) → (⟨S850000, .i32⟩ : BufTy).Contents (Elt F)),
    ternary main_v58 main_v60 main_v3 main_v61 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v61 main_v62 (broadcastInDim S850000x1 ![0] bcast_S850000_S850000x1_0 : (⟨S850000, .i32⟩ : BufTy).Contents (Elt F) → (⟨S850000x1, .i32⟩ : BufTy).Contents (Elt F)),
    binary main_v56 main_v62 main_v63 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v64 (broadcastInDim S850000 ![] bcast_S_S850000 : (⟨S_, .i32⟩ : BufTy).Contents (Elt F) → (⟨S850000, .i32⟩ : BufTy).Contents (Elt F)),
    binary main_v6 main_v64 main_v65 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v66 (broadcastInDim S850000 ![] bcast_S_S850000 : (⟨S_, .i32⟩ : BufTy).Contents (Elt F) → (⟨S850000, .i32⟩ : BufTy).Contents (Elt F)),
    binary main_v6 main_v66 main_v67 (addi : (⟨S850000, .i32⟩ : BufTy).Contents (Elt F) → (⟨S850000, .i32⟩ : BufTy).Contents (Elt F) → (⟨S850000, .i32⟩ : BufTy).Contents (Elt F)),
    ternary main_v65 main_v67 main_v6 main_v68 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v68 main_v69 (broadcastInDim S850000x1 ![0] bcast_S850000_S850000x1_0 : (⟨S850000, .i32⟩ : BufTy).Contents (Elt F) → (⟨S850000x1, .i32⟩ : BufTy).Contents (Elt F)),
    binary main_v56 main_v69 main_v70 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v63 main_v70 main_v71 (mulf : (⟨S850000, .f32⟩ : BufTy).Contents (Elt F) → (⟨S850000, .f32⟩ : BufTy).Contents (Elt F) → (⟨S850000, .f32⟩ : BufTy).Contents (Elt F)) ]

abbrev s11 : List (HloOp τ sig (Elt F)) :=
  [ nullary main_c_17 (constantI S_ 32 0#32),
    unary main_c_17 main_v72 (broadcastInDim S850000 ![] bcast_S_S850000 : (⟨S_, .i32⟩ : BufTy).Contents (Elt F) → (⟨S850000, .i32⟩ : BufTy).Contents (Elt F)),
    binary main_v3 main_v72 main_v73 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v74 (broadcastInDim S850000 ![] bcast_S_S850000 : (⟨S_, .i32⟩ : BufTy).Contents (Elt F) → (⟨S850000, .i32⟩ : BufTy).Contents (Elt F)),
    binary main_v3 main_v74 main_v75 (addi : (⟨S850000, .i32⟩ : BufTy).Contents (Elt F) → (⟨S850000, .i32⟩ : BufTy).Contents (Elt F) → (⟨S850000, .i32⟩ : BufTy).Contents (Elt F)),
    ternary main_v73 main_v75 main_v3 main_v76 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v76 main_v77 (broadcastInDim S850000x1 ![0] bcast_S850000_S850000x1_0 : (⟨S850000, .i32⟩ : BufTy).Contents (Elt F) → (⟨S850000x1, .i32⟩ : BufTy).Contents (Elt F)),
    binary main_v48 main_v77 main_v78 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v71 main_v79 (broadcastInDim S850000x1 ![0] bcast_S850000_S850000x1_0 : (⟨S850000, .f32⟩ : BufTy).Contents (Elt F) → (⟨S850000x1, .f32⟩ : BufTy).Contents (Elt F)),
    unary main_v79 main_v80 (broadcastInDim S850000x64 ![0, 1] bcast_S850000x1_S850000x64_0_1 : (⟨S850000x1, .f32⟩ : BufTy).Contents (Elt F) → (⟨S850000x64, .f32⟩ : BufTy).Contents (Elt F)),
    binary main_v78 main_v80 main_v81 (mulf : (⟨S850000x64, .f32⟩ : BufTy).Contents (Elt F) → (⟨S850000x64, .f32⟩ : BufTy).Contents (Elt F) → (⟨S850000x64, .f32⟩ : BufTy).Contents (Elt F)),
    nullary main_cst_19 (constant S_ .f32 0x00000000#32),
    unary main_cst_19 main_v82 (broadcastInDim S50000x64 ![] bcast_S_S50000x64 : (⟨S_, .f32⟩ : BufTy).Contents (Elt F) → (⟨S50000x64, .f32⟩ : BufTy).Contents (Elt F)),
    unary main_v6 main_v83 (broadcastInDim S850000x1 ![0] bcast_S850000_S850000x1_0 : (⟨S850000, .i32⟩ : BufTy).Contents (Elt F) → (⟨S850000x1, .i32⟩ : BufTy).Contents (Elt F)),
    ternary main_v82 main_v83 main_v81 main_v84 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg5 main_v85 (broadcastInDim S1x64 ![1] bcast_S64_S1x64_1 : (⟨S64, .f32⟩ : BufTy).Contents (Elt F) → (⟨S1x64, .f32⟩ : BufTy).Contents (Elt F)),
    unary main_v85 main_v86 (broadcastInDim S50000x64 ![0, 1] bcast_S1x64_S50000x64_0_1 : (⟨S1x64, .f32⟩ : BufTy).Contents (Elt F) → (⟨S50000x64, .f32⟩ : BufTy).Contents (Elt F)),
    binary main_v84 main_v86 main_v87 (addf : (⟨S50000x64, .f32⟩ : BufTy).Contents (Elt F) → (⟨S50000x64, .f32⟩ : BufTy).Contents (Elt F) → (⟨S50000x64, .f32⟩ : BufTy).Contents (Elt F)),
    binary main_v87 main_arg6 main_v88 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg7 main_v89 (broadcastInDim S1x64 ![1] bcast_S64_S1x64_1 : (⟨S64, .f32⟩ : BufTy).Contents (Elt F) → (⟨S1x64, .f32⟩ : BufTy).Contents (Elt F)),
    unary main_v89 main_v90 (broadcastInDim S50000x64 ![0, 1] bcast_S1x64_S50000x64_0_1 : (⟨S1x64, .f32⟩ : BufTy).Contents (Elt F) → (⟨S50000x64, .f32⟩ : BufTy).Contents (Elt F)),
    binary main_v88 main_v90 main_v91 (addf : (⟨S50000x64, .f32⟩ : BufTy).Contents (Elt F) → (⟨S50000x64, .f32⟩ : BufTy).Contents (Elt F) → (⟨S50000x64, .f32⟩ : BufTy).Contents (Elt F)) ]

end Segments

set_option maxRecDepth 16384 in
/-- The stretches, in order, are the program's operations. -/
theorem ops_eq : (ops : List (HloOp τ sig (Elt Ideal))) = s1 ++ (s2 ++ (s3 ++ (s4 ++ (s5 ++ (s6 ++ (s7 ++ (s8 ++ (s9 ++ (s10 ++ (s11)))))))))) := rfl

/-- Two stretches run one after the other. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- The whole fold is the stretches in order. -/
theorem after_ops (V : Valuation τ sig (Elt Ideal)) :
    after (ops (F := Ideal)) V = after s11 (after s10 (after s9 (after s8 (after s7 (after s6 (after s5 (after s4 (after s3 (after s2 (after s1 (V))))))))))) := by
  rw [ops_eq, after_append, after_append, after_append, after_append, after_append, after_append, after_append, after_append, after_append, after_append]

theorem mem_s1 : ∀ op ∈ (s1 : List (HloOp τ sig (Elt Ideal))), op ∈ (ops : List (HloOp τ sig (Elt Ideal))) :=
  fun op h => ops_eq ▸ (List.mem_append_left _ h)
theorem mem_s2 : ∀ op ∈ (s2 : List (HloOp τ sig (Elt Ideal))), op ∈ (ops : List (HloOp τ sig (Elt Ideal))) :=
  fun op h => ops_eq ▸ (List.mem_append_right _ (List.mem_append_left _ h))
theorem mem_s3 : ∀ op ∈ (s3 : List (HloOp τ sig (Elt Ideal))), op ∈ (ops : List (HloOp τ sig (Elt Ideal))) :=
  fun op h => ops_eq ▸ (List.mem_append_right _ (List.mem_append_right _ (List.mem_append_left _ h)))
theorem mem_s4 : ∀ op ∈ (s4 : List (HloOp τ sig (Elt Ideal))), op ∈ (ops : List (HloOp τ sig (Elt Ideal))) :=
  fun op h => ops_eq ▸ (List.mem_append_right _ (List.mem_append_right _ (List.mem_append_right _ (List.mem_append_left _ h))))
theorem mem_s5 : ∀ op ∈ (s5 : List (HloOp τ sig (Elt Ideal))), op ∈ (ops : List (HloOp τ sig (Elt Ideal))) :=
  fun op h => ops_eq ▸ (List.mem_append_right _ (List.mem_append_right _ (List.mem_append_right _ (List.mem_append_right _ (List.mem_append_left _ h)))))
theorem mem_s6 : ∀ op ∈ (s6 : List (HloOp τ sig (Elt Ideal))), op ∈ (ops : List (HloOp τ sig (Elt Ideal))) :=
  fun op h => ops_eq ▸ (List.mem_append_right _ (List.mem_append_right _ (List.mem_append_right _ (List.mem_append_right _ (List.mem_append_right _ (List.mem_append_left _ h))))))
theorem mem_s7 : ∀ op ∈ (s7 : List (HloOp τ sig (Elt Ideal))), op ∈ (ops : List (HloOp τ sig (Elt Ideal))) :=
  fun op h => ops_eq ▸ (List.mem_append_right _ (List.mem_append_right _ (List.mem_append_right _ (List.mem_append_right _ (List.mem_append_right _ (List.mem_append_right _ (List.mem_append_left _ h)))))))
theorem mem_s8 : ∀ op ∈ (s8 : List (HloOp τ sig (Elt Ideal))), op ∈ (ops : List (HloOp τ sig (Elt Ideal))) :=
  fun op h => ops_eq ▸ (List.mem_append_right _ (List.mem_append_right _ (List.mem_append_right _ (List.mem_append_right _ (List.mem_append_right _ (List.mem_append_right _ (List.mem_append_right _ (List.mem_append_left _ h))))))))
theorem mem_s9 : ∀ op ∈ (s9 : List (HloOp τ sig (Elt Ideal))), op ∈ (ops : List (HloOp τ sig (Elt Ideal))) :=
  fun op h => ops_eq ▸ (List.mem_append_right _ (List.mem_append_right _ (List.mem_append_right _ (List.mem_append_right _ (List.mem_append_right _ (List.mem_append_right _ (List.mem_append_right _ (List.mem_append_right _ (List.mem_append_left _ h)))))))))
theorem mem_s10 : ∀ op ∈ (s10 : List (HloOp τ sig (Elt Ideal))), op ∈ (ops : List (HloOp τ sig (Elt Ideal))) :=
  fun op h => ops_eq ▸ (List.mem_append_right _ (List.mem_append_right _ (List.mem_append_right _ (List.mem_append_right _ (List.mem_append_right _ (List.mem_append_right _ (List.mem_append_right _ (List.mem_append_right _ (List.mem_append_right _ (List.mem_append_left _ h))))))))))
theorem mem_s11 : ∀ op ∈ (s11 : List (HloOp τ sig (Elt Ideal))), op ∈ (ops : List (HloOp τ sig (Elt Ideal))) :=
  fun op h => ops_eq ▸ (List.mem_append_right _ (List.mem_append_right _ (List.mem_append_right _ (List.mem_append_right _ (List.mem_append_right _ (List.mem_append_right _ (List.mem_append_right _ (List.mem_append_right _ (List.mem_append_right _ (List.mem_append_right _ h))))))))))

/-- Decides, operation by operation over a literal list, that none writes the given buffer. -/
local macro "not_written" : tactic =>
  `(tactic| (refine List.forall_iff_forall_mem.mp ?_
             simp only [ops, s1, s2, s3, s4, s5, s6, s7, s8, s9, s10, s11, List.Forall, nullary_writes,
               unary_writes, binary_writes, ternary_writes, quaternary_writes, reshape_writes, binaryIndexed_writes,
               Finset.mem_singleton]
             repeat' apply And.intro
             all_goals exact devRef_ne_of_ne (by decide)))

/-! ### No operation writes an argument -/

set_option maxRecDepth 16384 in
theorem nw_arg0 : ∀ op ∈ (ops : List (HloOp τ sig (Elt Ideal))), Proc.devRef (τ := τ) .tc main_arg0 ∉ op.writes := by not_written
set_option maxRecDepth 16384 in
theorem nw_arg1 : ∀ op ∈ (ops : List (HloOp τ sig (Elt Ideal))), Proc.devRef (τ := τ) .tc main_arg1 ∉ op.writes := by not_written
set_option maxRecDepth 16384 in
theorem nw_arg2 : ∀ op ∈ (ops : List (HloOp τ sig (Elt Ideal))), Proc.devRef (τ := τ) .tc main_arg2 ∉ op.writes := by not_written
set_option maxRecDepth 16384 in
theorem nw_arg3 : ∀ op ∈ (ops : List (HloOp τ sig (Elt Ideal))), Proc.devRef (τ := τ) .tc main_arg3 ∉ op.writes := by not_written
set_option maxRecDepth 16384 in
theorem nw_arg4 : ∀ op ∈ (ops : List (HloOp τ sig (Elt Ideal))), Proc.devRef (τ := τ) .tc main_arg4 ∉ op.writes := by not_written
set_option maxRecDepth 16384 in
theorem nw_arg5 : ∀ op ∈ (ops : List (HloOp τ sig (Elt Ideal))), Proc.devRef (τ := τ) .tc main_arg5 ∉ op.writes := by not_written
set_option maxRecDepth 16384 in
theorem nw_arg6 : ∀ op ∈ (ops : List (HloOp τ sig (Elt Ideal))), Proc.devRef (τ := τ) .tc main_arg6 ∉ op.writes := by not_written
set_option maxRecDepth 16384 in
theorem nw_arg7 : ∀ op ∈ (ops : List (HloOp τ sig (Elt Ideal))), Proc.devRef (τ := τ) .tc main_arg7 ∉ op.writes := by not_written

/-! ### Each stretch, from any contents `W` -/

section Stretches

variable (W : Valuation τ sig (Elt Ideal))

theorem s1_v3 : after s1 W (Proc.devRef .tc main_v3) = Gcn.src (W (Proc.devRef .tc main_arg1)) := by
  after_results_simp
  rfl
theorem s1_v6 : after s1 W (Proc.devRef .tc main_v6) = Gcn.dst (W (Proc.devRef .tc main_arg1)) := by
  after_results_simp
  rfl

theorem s2_v7 : after s2 W (Proc.devRef .tc main_v7) = (Host.dotGeneral (F := Ideal) (φ₁ := .f32) (φ₂ := .f32) dot_S50000x128_S128x64_S50000x64_1_0_0_1_n_n none (W (Proc.devRef .tc main_arg0)) (W (Proc.devRef .tc main_arg2))) := by
  after_results_simp
theorem s2_v13 : after s2 W (Proc.devRef .tc main_v13) = cmpf (F := Ideal) .ogt (Gcn.deg (W (Proc.devRef .tc main_v6))) (broadcastInDim S50000 ![] bcast_S_S50000 (constant (F := Ideal) S_ .f32 0x00000000#32)) := by
  after_results_simp
  rfl
theorem s2_v14 : after s2 W (Proc.devRef .tc main_v14) = Host.rsqrt (F := Ideal) (Gcn.deg (W (Proc.devRef .tc main_v6))) := by
  after_results_simp
  rfl
theorem s2_cst_2 : after s2 W (Proc.devRef .tc main_cst_2) = constant (F := Ideal) S_ .f32 0x00000000#32 := by
  after_results_simp

theorem s3_v15 : after s3 W (Proc.devRef .tc main_v15) = Gcn.whereOf (W (Proc.devRef .tc main_v13)) (W (Proc.devRef .tc main_v14)) (W (Proc.devRef .tc main_cst_2)) := by
  after_results_simp
  simp only [cast_eq]
  rfl

theorem s4_v30 : after s4 W (Proc.devRef .tc main_v30) = Gcn.nrmFrom (W (Proc.devRef .tc main_v15)) (W (Proc.devRef .tc main_v3)) (W (Proc.devRef .tc main_v6)) := by
  after_results_simp
  rfl

theorem s5_v46 : after s5 W (Proc.devRef .tc main_v46)
    = addf (Gcn.aggOf (W (Proc.devRef .tc main_v3)) (W (Proc.devRef .tc main_v6)) (W (Proc.devRef .tc main_v30)) (W (Proc.devRef .tc main_v7))) (broadcastInDim S50000x64 ![0, 1] bcast_S1x64_S50000x64_0_1 (broadcastInDim S1x64 ![1] bcast_S64_S1x64_1 (W (Proc.devRef .tc main_arg3)))) := by
  after_results_simp
  rfl

theorem s6_v47 : after s6 W (Proc.devRef .tc main_v47) = maximumf (F := Ideal) (φ := .f32) (W (Proc.devRef .tc main_v46)) (broadcastInDim S50000x64 ![] bcast_S_S50000x64 (constant (F := Ideal) S_ .f32 0x00000000#32)) := by
  after_results_simp
  simp only [cast_eq]

theorem s7_v48 : after s7 W (Proc.devRef .tc main_v48) = (Host.dotGeneral (F := Ideal) (φ₁ := .f32) (φ₂ := .f32) dot_S50000x64_S64x64_S50000x64_1_0_0_1_n_n none (W (Proc.devRef .tc main_v47)) (W (Proc.devRef .tc main_arg4))) := by
  after_results_simp

theorem s8_v54 : after s8 W (Proc.devRef .tc main_v54) = cmpf (F := Ideal) .ogt (Gcn.deg (W (Proc.devRef .tc main_v6))) (broadcastInDim S50000 ![] bcast_S_S50000 (constant (F := Ideal) S_ .f32 0x00000000#32)) := by
  after_results_simp
  rfl
theorem s8_v55 : after s8 W (Proc.devRef .tc main_v55) = Host.rsqrt (F := Ideal) (Gcn.deg (W (Proc.devRef .tc main_v6))) := by
  after_results_simp
  rfl
theorem s8_cst_12 : after s8 W (Proc.devRef .tc main_cst_12) = constant (F := Ideal) S_ .f32 0x00000000#32 := by
  after_results_simp

theorem s9_v56 : after s9 W (Proc.devRef .tc main_v56) = Gcn.whereOf (W (Proc.devRef .tc main_v54)) (W (Proc.devRef .tc main_v55)) (W (Proc.devRef .tc main_cst_12)) := by
  after_results_simp
  simp only [cast_eq]
  rfl

theorem s10_v71 : after s10 W (Proc.devRef .tc main_v71) = Gcn.nrmFrom (W (Proc.devRef .tc main_v56)) (W (Proc.devRef .tc main_v3)) (W (Proc.devRef .tc main_v6)) := by
  after_results_simp
  rfl

theorem s11_v91 : after s11 W (Proc.devRef .tc main_v91)
    = addf (Host.dotGeneral (F := Ideal) (φ₁ := .f32) (φ₂ := .f32) dot_S50000x64_S64x64_S50000x64_1_0_0_1_n_n none (addf (Gcn.aggOf (W (Proc.devRef .tc main_v3)) (W (Proc.devRef .tc main_v6)) (W (Proc.devRef .tc main_v71)) (W (Proc.devRef .tc main_v48))) (broadcastInDim S50000x64 ![0, 1] bcast_S1x64_S50000x64_0_1 (broadcastInDim S1x64 ![1] bcast_S64_S1x64_1 (W (Proc.devRef .tc main_arg5))))) (W (Proc.devRef .tc main_arg6))) (broadcastInDim S50000x64 ![0, 1] bcast_S1x64_S50000x64_0_1 (broadcastInDim S1x64 ![1] bcast_S64_S1x64_1 (W (Proc.devRef .tc main_arg7)))) := by
  after_results_simp
  rfl

end Stretches

/-! ### The boundaries, read from the launch memory -/

section Chain

variable (m : (ℓ : Loc nD τ sig) → Buf (Elt Ideal) ℓ) (c : Dev nD)

theorem V0_arg0 : (launchContents m c) (Proc.devRef .tc main_arg0) = (m ((c.tc : Thread nD τ).loc main_arg0)) := rfl
theorem V0_arg1 : (launchContents m c) (Proc.devRef .tc main_arg1) = (m ((c.tc : Thread nD τ).loc main_arg1)) := rfl
theorem V0_arg2 : (launchContents m c) (Proc.devRef .tc main_arg2) = (m ((c.tc : Thread nD τ).loc main_arg2)) := rfl
theorem V0_arg3 : (launchContents m c) (Proc.devRef .tc main_arg3) = (m ((c.tc : Thread nD τ).loc main_arg3)) := rfl
theorem V0_arg4 : (launchContents m c) (Proc.devRef .tc main_arg4) = (m ((c.tc : Thread nD τ).loc main_arg4)) := rfl
theorem V0_arg5 : (launchContents m c) (Proc.devRef .tc main_arg5) = (m ((c.tc : Thread nD τ).loc main_arg5)) := rfl
theorem V0_arg6 : (launchContents m c) (Proc.devRef .tc main_arg6) = (m ((c.tc : Thread nD τ).loc main_arg6)) := rfl
theorem V0_arg7 : (launchContents m c) (Proc.devRef .tc main_arg7) = (m ((c.tc : Thread nD τ).loc main_arg7)) := rfl
theorem V1_arg0 : (after s1 (launchContents m c)) (Proc.devRef .tc main_arg0) = (m ((c.tc : Thread nD τ).loc main_arg0)) :=
  (after_of_forall_not_mem s1 (launchContents m c) fun op h => nw_arg0 op (mem_s1 op h)).trans (V0_arg0 m c)
theorem V1_arg2 : (after s1 (launchContents m c)) (Proc.devRef .tc main_arg2) = (m ((c.tc : Thread nD τ).loc main_arg2)) :=
  (after_of_forall_not_mem s1 (launchContents m c) fun op h => nw_arg2 op (mem_s1 op h)).trans (V0_arg2 m c)
theorem V1_arg3 : (after s1 (launchContents m c)) (Proc.devRef .tc main_arg3) = (m ((c.tc : Thread nD τ).loc main_arg3)) :=
  (after_of_forall_not_mem s1 (launchContents m c) fun op h => nw_arg3 op (mem_s1 op h)).trans (V0_arg3 m c)
theorem V2_arg3 : (after s2 (after s1 (launchContents m c))) (Proc.devRef .tc main_arg3) = (m ((c.tc : Thread nD τ).loc main_arg3)) :=
  (after_of_forall_not_mem s2 (after s1 (launchContents m c)) fun op h => nw_arg3 op (mem_s2 op h)).trans (V1_arg3 m c)
theorem V3_arg3 : (after s3 (after s2 (after s1 (launchContents m c)))) (Proc.devRef .tc main_arg3) = (m ((c.tc : Thread nD τ).loc main_arg3)) :=
  (after_of_forall_not_mem s3 (after s2 (after s1 (launchContents m c))) fun op h => nw_arg3 op (mem_s3 op h)).trans (V2_arg3 m c)
theorem V4_arg3 : (after s4 (after s3 (after s2 (after s1 (launchContents m c))))) (Proc.devRef .tc main_arg3) = (m ((c.tc : Thread nD τ).loc main_arg3)) :=
  (after_of_forall_not_mem s4 (after s3 (after s2 (after s1 (launchContents m c)))) fun op h => nw_arg3 op (mem_s4 op h)).trans (V3_arg3 m c)
theorem V1_arg4 : (after s1 (launchContents m c)) (Proc.devRef .tc main_arg4) = (m ((c.tc : Thread nD τ).loc main_arg4)) :=
  (after_of_forall_not_mem s1 (launchContents m c) fun op h => nw_arg4 op (mem_s1 op h)).trans (V0_arg4 m c)
theorem V2_arg4 : (after s2 (after s1 (launchContents m c))) (Proc.devRef .tc main_arg4) = (m ((c.tc : Thread nD τ).loc main_arg4)) :=
  (after_of_forall_not_mem s2 (after s1 (launchContents m c)) fun op h => nw_arg4 op (mem_s2 op h)).trans (V1_arg4 m c)
theorem V3_arg4 : (after s3 (after s2 (after s1 (launchContents m c)))) (Proc.devRef .tc main_arg4) = (m ((c.tc : Thread nD τ).loc main_arg4)) :=
  (after_of_forall_not_mem s3 (after s2 (after s1 (launchContents m c))) fun op h => nw_arg4 op (mem_s3 op h)).trans (V2_arg4 m c)
theorem V4_arg4 : (after s4 (after s3 (after s2 (after s1 (launchContents m c))))) (Proc.devRef .tc main_arg4) = (m ((c.tc : Thread nD τ).loc main_arg4)) :=
  (after_of_forall_not_mem s4 (after s3 (after s2 (after s1 (launchContents m c)))) fun op h => nw_arg4 op (mem_s4 op h)).trans (V3_arg4 m c)
theorem V5_arg4 : (after s5 (after s4 (after s3 (after s2 (after s1 (launchContents m c)))))) (Proc.devRef .tc main_arg4) = (m ((c.tc : Thread nD τ).loc main_arg4)) :=
  (after_of_forall_not_mem s5 (after s4 (after s3 (after s2 (after s1 (launchContents m c))))) fun op h => nw_arg4 op (mem_s5 op h)).trans (V4_arg4 m c)
theorem V6_arg4 : (after s6 (after s5 (after s4 (after s3 (after s2 (after s1 (launchContents m c))))))) (Proc.devRef .tc main_arg4) = (m ((c.tc : Thread nD τ).loc main_arg4)) :=
  (after_of_forall_not_mem s6 (after s5 (after s4 (after s3 (after s2 (after s1 (launchContents m c)))))) fun op h => nw_arg4 op (mem_s6 op h)).trans (V5_arg4 m c)
theorem V1_arg5 : (after s1 (launchContents m c)) (Proc.devRef .tc main_arg5) = (m ((c.tc : Thread nD τ).loc main_arg5)) :=
  (after_of_forall_not_mem s1 (launchContents m c) fun op h => nw_arg5 op (mem_s1 op h)).trans (V0_arg5 m c)
theorem V2_arg5 : (after s2 (after s1 (launchContents m c))) (Proc.devRef .tc main_arg5) = (m ((c.tc : Thread nD τ).loc main_arg5)) :=
  (after_of_forall_not_mem s2 (after s1 (launchContents m c)) fun op h => nw_arg5 op (mem_s2 op h)).trans (V1_arg5 m c)
theorem V3_arg5 : (after s3 (after s2 (after s1 (launchContents m c)))) (Proc.devRef .tc main_arg5) = (m ((c.tc : Thread nD τ).loc main_arg5)) :=
  (after_of_forall_not_mem s3 (after s2 (after s1 (launchContents m c))) fun op h => nw_arg5 op (mem_s3 op h)).trans (V2_arg5 m c)
theorem V4_arg5 : (after s4 (after s3 (after s2 (after s1 (launchContents m c))))) (Proc.devRef .tc main_arg5) = (m ((c.tc : Thread nD τ).loc main_arg5)) :=
  (after_of_forall_not_mem s4 (after s3 (after s2 (after s1 (launchContents m c)))) fun op h => nw_arg5 op (mem_s4 op h)).trans (V3_arg5 m c)
theorem V5_arg5 : (after s5 (after s4 (after s3 (after s2 (after s1 (launchContents m c)))))) (Proc.devRef .tc main_arg5) = (m ((c.tc : Thread nD τ).loc main_arg5)) :=
  (after_of_forall_not_mem s5 (after s4 (after s3 (after s2 (after s1 (launchContents m c))))) fun op h => nw_arg5 op (mem_s5 op h)).trans (V4_arg5 m c)
theorem V6_arg5 : (after s6 (after s5 (after s4 (after s3 (after s2 (after s1 (launchContents m c))))))) (Proc.devRef .tc main_arg5) = (m ((c.tc : Thread nD τ).loc main_arg5)) :=
  (after_of_forall_not_mem s6 (after s5 (after s4 (after s3 (after s2 (after s1 (launchContents m c)))))) fun op h => nw_arg5 op (mem_s6 op h)).trans (V5_arg5 m c)
theorem V7_arg5 : (after s7 (after s6 (after s5 (after s4 (after s3 (after s2 (after s1 (launchContents m c)))))))) (Proc.devRef .tc main_arg5) = (m ((c.tc : Thread nD τ).loc main_arg5)) :=
  (after_of_forall_not_mem s7 (after s6 (after s5 (after s4 (after s3 (after s2 (after s1 (launchContents m c))))))) fun op h => nw_arg5 op (mem_s7 op h)).trans (V6_arg5 m c)
theorem V8_arg5 : (after s8 (after s7 (after s6 (after s5 (after s4 (after s3 (after s2 (after s1 (launchContents m c))))))))) (Proc.devRef .tc main_arg5) = (m ((c.tc : Thread nD τ).loc main_arg5)) :=
  (after_of_forall_not_mem s8 (after s7 (after s6 (after s5 (after s4 (after s3 (after s2 (after s1 (launchContents m c)))))))) fun op h => nw_arg5 op (mem_s8 op h)).trans (V7_arg5 m c)
theorem V9_arg5 : (after s9 (after s8 (after s7 (after s6 (after s5 (after s4 (after s3 (after s2 (after s1 (launchContents m c)))))))))) (Proc.devRef .tc main_arg5) = (m ((c.tc : Thread nD τ).loc main_arg5)) :=
  (after_of_forall_not_mem s9 (after s8 (after s7 (after s6 (after s5 (after s4 (after s3 (after s2 (after s1 (launchContents m c))))))))) fun op h => nw_arg5 op (mem_s9 op h)).trans (V8_arg5 m c)
theorem V10_arg5 : (after s10 (after s9 (after s8 (after s7 (after s6 (after s5 (after s4 (after s3 (after s2 (after s1 (launchContents m c))))))))))) (Proc.devRef .tc main_arg5) = (m ((c.tc : Thread nD τ).loc main_arg5)) :=
  (after_of_forall_not_mem s10 (after s9 (after s8 (after s7 (after s6 (after s5 (after s4 (after s3 (after s2 (after s1 (launchContents m c)))))))))) fun op h => nw_arg5 op (mem_s10 op h)).trans (V9_arg5 m c)
theorem V1_arg6 : (after s1 (launchContents m c)) (Proc.devRef .tc main_arg6) = (m ((c.tc : Thread nD τ).loc main_arg6)) :=
  (after_of_forall_not_mem s1 (launchContents m c) fun op h => nw_arg6 op (mem_s1 op h)).trans (V0_arg6 m c)
theorem V2_arg6 : (after s2 (after s1 (launchContents m c))) (Proc.devRef .tc main_arg6) = (m ((c.tc : Thread nD τ).loc main_arg6)) :=
  (after_of_forall_not_mem s2 (after s1 (launchContents m c)) fun op h => nw_arg6 op (mem_s2 op h)).trans (V1_arg6 m c)
theorem V3_arg6 : (after s3 (after s2 (after s1 (launchContents m c)))) (Proc.devRef .tc main_arg6) = (m ((c.tc : Thread nD τ).loc main_arg6)) :=
  (after_of_forall_not_mem s3 (after s2 (after s1 (launchContents m c))) fun op h => nw_arg6 op (mem_s3 op h)).trans (V2_arg6 m c)
theorem V4_arg6 : (after s4 (after s3 (after s2 (after s1 (launchContents m c))))) (Proc.devRef .tc main_arg6) = (m ((c.tc : Thread nD τ).loc main_arg6)) :=
  (after_of_forall_not_mem s4 (after s3 (after s2 (after s1 (launchContents m c)))) fun op h => nw_arg6 op (mem_s4 op h)).trans (V3_arg6 m c)
theorem V5_arg6 : (after s5 (after s4 (after s3 (after s2 (after s1 (launchContents m c)))))) (Proc.devRef .tc main_arg6) = (m ((c.tc : Thread nD τ).loc main_arg6)) :=
  (after_of_forall_not_mem s5 (after s4 (after s3 (after s2 (after s1 (launchContents m c))))) fun op h => nw_arg6 op (mem_s5 op h)).trans (V4_arg6 m c)
theorem V6_arg6 : (after s6 (after s5 (after s4 (after s3 (after s2 (after s1 (launchContents m c))))))) (Proc.devRef .tc main_arg6) = (m ((c.tc : Thread nD τ).loc main_arg6)) :=
  (after_of_forall_not_mem s6 (after s5 (after s4 (after s3 (after s2 (after s1 (launchContents m c)))))) fun op h => nw_arg6 op (mem_s6 op h)).trans (V5_arg6 m c)
theorem V7_arg6 : (after s7 (after s6 (after s5 (after s4 (after s3 (after s2 (after s1 (launchContents m c)))))))) (Proc.devRef .tc main_arg6) = (m ((c.tc : Thread nD τ).loc main_arg6)) :=
  (after_of_forall_not_mem s7 (after s6 (after s5 (after s4 (after s3 (after s2 (after s1 (launchContents m c))))))) fun op h => nw_arg6 op (mem_s7 op h)).trans (V6_arg6 m c)
theorem V8_arg6 : (after s8 (after s7 (after s6 (after s5 (after s4 (after s3 (after s2 (after s1 (launchContents m c))))))))) (Proc.devRef .tc main_arg6) = (m ((c.tc : Thread nD τ).loc main_arg6)) :=
  (after_of_forall_not_mem s8 (after s7 (after s6 (after s5 (after s4 (after s3 (after s2 (after s1 (launchContents m c)))))))) fun op h => nw_arg6 op (mem_s8 op h)).trans (V7_arg6 m c)
theorem V9_arg6 : (after s9 (after s8 (after s7 (after s6 (after s5 (after s4 (after s3 (after s2 (after s1 (launchContents m c)))))))))) (Proc.devRef .tc main_arg6) = (m ((c.tc : Thread nD τ).loc main_arg6)) :=
  (after_of_forall_not_mem s9 (after s8 (after s7 (after s6 (after s5 (after s4 (after s3 (after s2 (after s1 (launchContents m c))))))))) fun op h => nw_arg6 op (mem_s9 op h)).trans (V8_arg6 m c)
theorem V10_arg6 : (after s10 (after s9 (after s8 (after s7 (after s6 (after s5 (after s4 (after s3 (after s2 (after s1 (launchContents m c))))))))))) (Proc.devRef .tc main_arg6) = (m ((c.tc : Thread nD τ).loc main_arg6)) :=
  (after_of_forall_not_mem s10 (after s9 (after s8 (after s7 (after s6 (after s5 (after s4 (after s3 (after s2 (after s1 (launchContents m c)))))))))) fun op h => nw_arg6 op (mem_s10 op h)).trans (V9_arg6 m c)
theorem V1_arg7 : (after s1 (launchContents m c)) (Proc.devRef .tc main_arg7) = (m ((c.tc : Thread nD τ).loc main_arg7)) :=
  (after_of_forall_not_mem s1 (launchContents m c) fun op h => nw_arg7 op (mem_s1 op h)).trans (V0_arg7 m c)
theorem V2_arg7 : (after s2 (after s1 (launchContents m c))) (Proc.devRef .tc main_arg7) = (m ((c.tc : Thread nD τ).loc main_arg7)) :=
  (after_of_forall_not_mem s2 (after s1 (launchContents m c)) fun op h => nw_arg7 op (mem_s2 op h)).trans (V1_arg7 m c)
theorem V3_arg7 : (after s3 (after s2 (after s1 (launchContents m c)))) (Proc.devRef .tc main_arg7) = (m ((c.tc : Thread nD τ).loc main_arg7)) :=
  (after_of_forall_not_mem s3 (after s2 (after s1 (launchContents m c))) fun op h => nw_arg7 op (mem_s3 op h)).trans (V2_arg7 m c)
theorem V4_arg7 : (after s4 (after s3 (after s2 (after s1 (launchContents m c))))) (Proc.devRef .tc main_arg7) = (m ((c.tc : Thread nD τ).loc main_arg7)) :=
  (after_of_forall_not_mem s4 (after s3 (after s2 (after s1 (launchContents m c)))) fun op h => nw_arg7 op (mem_s4 op h)).trans (V3_arg7 m c)
theorem V5_arg7 : (after s5 (after s4 (after s3 (after s2 (after s1 (launchContents m c)))))) (Proc.devRef .tc main_arg7) = (m ((c.tc : Thread nD τ).loc main_arg7)) :=
  (after_of_forall_not_mem s5 (after s4 (after s3 (after s2 (after s1 (launchContents m c))))) fun op h => nw_arg7 op (mem_s5 op h)).trans (V4_arg7 m c)
theorem V6_arg7 : (after s6 (after s5 (after s4 (after s3 (after s2 (after s1 (launchContents m c))))))) (Proc.devRef .tc main_arg7) = (m ((c.tc : Thread nD τ).loc main_arg7)) :=
  (after_of_forall_not_mem s6 (after s5 (after s4 (after s3 (after s2 (after s1 (launchContents m c)))))) fun op h => nw_arg7 op (mem_s6 op h)).trans (V5_arg7 m c)
theorem V7_arg7 : (after s7 (after s6 (after s5 (after s4 (after s3 (after s2 (after s1 (launchContents m c)))))))) (Proc.devRef .tc main_arg7) = (m ((c.tc : Thread nD τ).loc main_arg7)) :=
  (after_of_forall_not_mem s7 (after s6 (after s5 (after s4 (after s3 (after s2 (after s1 (launchContents m c))))))) fun op h => nw_arg7 op (mem_s7 op h)).trans (V6_arg7 m c)
theorem V8_arg7 : (after s8 (after s7 (after s6 (after s5 (after s4 (after s3 (after s2 (after s1 (launchContents m c))))))))) (Proc.devRef .tc main_arg7) = (m ((c.tc : Thread nD τ).loc main_arg7)) :=
  (after_of_forall_not_mem s8 (after s7 (after s6 (after s5 (after s4 (after s3 (after s2 (after s1 (launchContents m c)))))))) fun op h => nw_arg7 op (mem_s8 op h)).trans (V7_arg7 m c)
theorem V9_arg7 : (after s9 (after s8 (after s7 (after s6 (after s5 (after s4 (after s3 (after s2 (after s1 (launchContents m c)))))))))) (Proc.devRef .tc main_arg7) = (m ((c.tc : Thread nD τ).loc main_arg7)) :=
  (after_of_forall_not_mem s9 (after s8 (after s7 (after s6 (after s5 (after s4 (after s3 (after s2 (after s1 (launchContents m c))))))))) fun op h => nw_arg7 op (mem_s9 op h)).trans (V8_arg7 m c)
theorem V10_arg7 : (after s10 (after s9 (after s8 (after s7 (after s6 (after s5 (after s4 (after s3 (after s2 (after s1 (launchContents m c))))))))))) (Proc.devRef .tc main_arg7) = (m ((c.tc : Thread nD τ).loc main_arg7)) :=
  (after_of_forall_not_mem s10 (after s9 (after s8 (after s7 (after s6 (after s5 (after s4 (after s3 (after s2 (after s1 (launchContents m c)))))))))) fun op h => nw_arg7 op (mem_s10 op h)).trans (V9_arg7 m c)

theorem V1_v3 : (after s1 (launchContents m c)) (Proc.devRef .tc main_v3) = Gcn.src (m ((c.tc : Thread nD τ).loc main_arg1)) := (s1_v3 (launchContents m c)).trans (by rw [V0_arg1])
theorem V1_v6 : (after s1 (launchContents m c)) (Proc.devRef .tc main_v6) = Gcn.dst (m ((c.tc : Thread nD τ).loc main_arg1)) := (s1_v6 (launchContents m c)).trans (by rw [V0_arg1])
theorem V2_v3 : (after s2 (after s1 (launchContents m c))) (Proc.devRef .tc main_v3) = Gcn.src (m ((c.tc : Thread nD τ).loc main_arg1)) :=
  (after_of_forall_not_mem s2 (after s1 (launchContents m c)) (by not_written)).trans (V1_v3 m c)
theorem V2_v6 : (after s2 (after s1 (launchContents m c))) (Proc.devRef .tc main_v6) = Gcn.dst (m ((c.tc : Thread nD τ).loc main_arg1)) :=
  (after_of_forall_not_mem s2 (after s1 (launchContents m c)) (by not_written)).trans (V1_v6 m c)
theorem V3_v3 : (after s3 (after s2 (after s1 (launchContents m c)))) (Proc.devRef .tc main_v3) = Gcn.src (m ((c.tc : Thread nD τ).loc main_arg1)) :=
  (after_of_forall_not_mem s3 (after s2 (after s1 (launchContents m c))) (by not_written)).trans (V2_v3 m c)
theorem V3_v6 : (after s3 (after s2 (after s1 (launchContents m c)))) (Proc.devRef .tc main_v6) = Gcn.dst (m ((c.tc : Thread nD τ).loc main_arg1)) :=
  (after_of_forall_not_mem s3 (after s2 (after s1 (launchContents m c))) (by not_written)).trans (V2_v6 m c)
theorem V4_v3 : (after s4 (after s3 (after s2 (after s1 (launchContents m c))))) (Proc.devRef .tc main_v3) = Gcn.src (m ((c.tc : Thread nD τ).loc main_arg1)) :=
  (after_of_forall_not_mem s4 (after s3 (after s2 (after s1 (launchContents m c)))) (by not_written)).trans (V3_v3 m c)
theorem V4_v6 : (after s4 (after s3 (after s2 (after s1 (launchContents m c))))) (Proc.devRef .tc main_v6) = Gcn.dst (m ((c.tc : Thread nD τ).loc main_arg1)) :=
  (after_of_forall_not_mem s4 (after s3 (after s2 (after s1 (launchContents m c)))) (by not_written)).trans (V3_v6 m c)
theorem V5_v3 : (after s5 (after s4 (after s3 (after s2 (after s1 (launchContents m c)))))) (Proc.devRef .tc main_v3) = Gcn.src (m ((c.tc : Thread nD τ).loc main_arg1)) :=
  (after_of_forall_not_mem s5 (after s4 (after s3 (after s2 (after s1 (launchContents m c))))) (by not_written)).trans (V4_v3 m c)
theorem V5_v6 : (after s5 (after s4 (after s3 (after s2 (after s1 (launchContents m c)))))) (Proc.devRef .tc main_v6) = Gcn.dst (m ((c.tc : Thread nD τ).loc main_arg1)) :=
  (after_of_forall_not_mem s5 (after s4 (after s3 (after s2 (after s1 (launchContents m c))))) (by not_written)).trans (V4_v6 m c)
theorem V6_v3 : (after s6 (after s5 (after s4 (after s3 (after s2 (after s1 (launchContents m c))))))) (Proc.devRef .tc main_v3) = Gcn.src (m ((c.tc : Thread nD τ).loc main_arg1)) :=
  (after_of_forall_not_mem s6 (after s5 (after s4 (after s3 (after s2 (after s1 (launchContents m c)))))) (by not_written)).trans (V5_v3 m c)
theorem V6_v6 : (after s6 (after s5 (after s4 (after s3 (after s2 (after s1 (launchContents m c))))))) (Proc.devRef .tc main_v6) = Gcn.dst (m ((c.tc : Thread nD τ).loc main_arg1)) :=
  (after_of_forall_not_mem s6 (after s5 (after s4 (after s3 (after s2 (after s1 (launchContents m c)))))) (by not_written)).trans (V5_v6 m c)
theorem V7_v3 : (after s7 (after s6 (after s5 (after s4 (after s3 (after s2 (after s1 (launchContents m c)))))))) (Proc.devRef .tc main_v3) = Gcn.src (m ((c.tc : Thread nD τ).loc main_arg1)) :=
  (after_of_forall_not_mem s7 (after s6 (after s5 (after s4 (after s3 (after s2 (after s1 (launchContents m c))))))) (by not_written)).trans (V6_v3 m c)
theorem V7_v6 : (after s7 (after s6 (after s5 (after s4 (after s3 (after s2 (after s1 (launchContents m c)))))))) (Proc.devRef .tc main_v6) = Gcn.dst (m ((c.tc : Thread nD τ).loc main_arg1)) :=
  (after_of_forall_not_mem s7 (after s6 (after s5 (after s4 (after s3 (after s2 (after s1 (launchContents m c))))))) (by not_written)).trans (V6_v6 m c)
theorem V8_v3 : (after s8 (after s7 (after s6 (after s5 (after s4 (after s3 (after s2 (after s1 (launchContents m c))))))))) (Proc.devRef .tc main_v3) = Gcn.src (m ((c.tc : Thread nD τ).loc main_arg1)) :=
  (after_of_forall_not_mem s8 (after s7 (after s6 (after s5 (after s4 (after s3 (after s2 (after s1 (launchContents m c)))))))) (by not_written)).trans (V7_v3 m c)
theorem V8_v6 : (after s8 (after s7 (after s6 (after s5 (after s4 (after s3 (after s2 (after s1 (launchContents m c))))))))) (Proc.devRef .tc main_v6) = Gcn.dst (m ((c.tc : Thread nD τ).loc main_arg1)) :=
  (after_of_forall_not_mem s8 (after s7 (after s6 (after s5 (after s4 (after s3 (after s2 (after s1 (launchContents m c)))))))) (by not_written)).trans (V7_v6 m c)
theorem V9_v3 : (after s9 (after s8 (after s7 (after s6 (after s5 (after s4 (after s3 (after s2 (after s1 (launchContents m c)))))))))) (Proc.devRef .tc main_v3) = Gcn.src (m ((c.tc : Thread nD τ).loc main_arg1)) :=
  (after_of_forall_not_mem s9 (after s8 (after s7 (after s6 (after s5 (after s4 (after s3 (after s2 (after s1 (launchContents m c))))))))) (by not_written)).trans (V8_v3 m c)
theorem V9_v6 : (after s9 (after s8 (after s7 (after s6 (after s5 (after s4 (after s3 (after s2 (after s1 (launchContents m c)))))))))) (Proc.devRef .tc main_v6) = Gcn.dst (m ((c.tc : Thread nD τ).loc main_arg1)) :=
  (after_of_forall_not_mem s9 (after s8 (after s7 (after s6 (after s5 (after s4 (after s3 (after s2 (after s1 (launchContents m c))))))))) (by not_written)).trans (V8_v6 m c)
theorem V10_v3 : (after s10 (after s9 (after s8 (after s7 (after s6 (after s5 (after s4 (after s3 (after s2 (after s1 (launchContents m c))))))))))) (Proc.devRef .tc main_v3) = Gcn.src (m ((c.tc : Thread nD τ).loc main_arg1)) :=
  (after_of_forall_not_mem s10 (after s9 (after s8 (after s7 (after s6 (after s5 (after s4 (after s3 (after s2 (after s1 (launchContents m c)))))))))) (by not_written)).trans (V9_v3 m c)
theorem V10_v6 : (after s10 (after s9 (after s8 (after s7 (after s6 (after s5 (after s4 (after s3 (after s2 (after s1 (launchContents m c))))))))))) (Proc.devRef .tc main_v6) = Gcn.dst (m ((c.tc : Thread nD τ).loc main_arg1)) :=
  (after_of_forall_not_mem s10 (after s9 (after s8 (after s7 (after s6 (after s5 (after s4 (after s3 (after s2 (after s1 (launchContents m c)))))))))) (by not_written)).trans (V9_v6 m c)

theorem V2_v7 : (after s2 (after s1 (launchContents m c))) (Proc.devRef .tc main_v7) = (Host.dotGeneral (F := Ideal) (φ₁ := .f32) (φ₂ := .f32) dot_S50000x128_S128x64_S50000x64_1_0_0_1_n_n none (m ((c.tc : Thread nD τ).loc main_arg0)) (m ((c.tc : Thread nD τ).loc main_arg2))) := by
  refine (s2_v7 (after s1 (launchContents m c))).trans ?_
  rw [V1_arg0, V1_arg2]
theorem V3_v7 : (after s3 (after s2 (after s1 (launchContents m c)))) (Proc.devRef .tc main_v7) = (Host.dotGeneral (F := Ideal) (φ₁ := .f32) (φ₂ := .f32) dot_S50000x128_S128x64_S50000x64_1_0_0_1_n_n none (m ((c.tc : Thread nD τ).loc main_arg0)) (m ((c.tc : Thread nD τ).loc main_arg2))) :=
  (after_of_forall_not_mem s3 (after s2 (after s1 (launchContents m c))) (by not_written)).trans (V2_v7 m c)
theorem V4_v7 : (after s4 (after s3 (after s2 (after s1 (launchContents m c))))) (Proc.devRef .tc main_v7) = (Host.dotGeneral (F := Ideal) (φ₁ := .f32) (φ₂ := .f32) dot_S50000x128_S128x64_S50000x64_1_0_0_1_n_n none (m ((c.tc : Thread nD τ).loc main_arg0)) (m ((c.tc : Thread nD τ).loc main_arg2))) :=
  (after_of_forall_not_mem s4 (after s3 (after s2 (after s1 (launchContents m c)))) (by not_written)).trans (V3_v7 m c)

theorem V3_v15 : (after s3 (after s2 (after s1 (launchContents m c)))) (Proc.devRef .tc main_v15) = Gcn.dinv (Gcn.dst (m ((c.tc : Thread nD τ).loc main_arg1))) := by
  refine (s3_v15 (after s2 (after s1 (launchContents m c)))).trans ?_
  rw [s2_v13, s2_v14, s2_cst_2, V1_v6]
  rfl
theorem V4_v30 : (after s4 (after s3 (after s2 (after s1 (launchContents m c))))) (Proc.devRef .tc main_v30) = Gcn.nrm (m ((c.tc : Thread nD τ).loc main_arg1)) := by
  refine (s4_v30 (after s3 (after s2 (after s1 (launchContents m c))))).trans ?_
  rw [V3_v15, V3_v3, V3_v6]
  rfl
theorem V5_v46 : (after s5 (after s4 (after s3 (after s2 (after s1 (launchContents m c)))))) (Proc.devRef .tc main_v46) = (addf (Gcn.agg (m ((c.tc : Thread nD τ).loc main_arg1)) (Host.dotGeneral (F := Ideal) (φ₁ := .f32) (φ₂ := .f32) dot_S50000x128_S128x64_S50000x64_1_0_0_1_n_n none (m ((c.tc : Thread nD τ).loc main_arg0)) (m ((c.tc : Thread nD τ).loc main_arg2)))) (broadcastInDim S50000x64 ![0, 1] bcast_S1x64_S50000x64_0_1 (broadcastInDim S1x64 ![1] bcast_S64_S1x64_1 (m ((c.tc : Thread nD τ).loc main_arg3))))) := by
  refine (s5_v46 (after s4 (after s3 (after s2 (after s1 (launchContents m c)))))).trans ?_
  rw [V4_v3, V4_v6, V4_v30, V4_v7, V4_arg3]
  rfl
theorem V6_v47 : (after s6 (after s5 (after s4 (after s3 (after s2 (after s1 (launchContents m c))))))) (Proc.devRef .tc main_v47) = (maximumf (addf (Gcn.agg (m ((c.tc : Thread nD τ).loc main_arg1)) (Host.dotGeneral (F := Ideal) (φ₁ := .f32) (φ₂ := .f32) dot_S50000x128_S128x64_S50000x64_1_0_0_1_n_n none (m ((c.tc : Thread nD τ).loc main_arg0)) (m ((c.tc : Thread nD τ).loc main_arg2)))) (broadcastInDim S50000x64 ![0, 1] bcast_S1x64_S50000x64_0_1 (broadcastInDim S1x64 ![1] bcast_S64_S1x64_1 (m ((c.tc : Thread nD τ).loc main_arg3))))) (broadcastInDim S50000x64 ![] bcast_S_S50000x64 (constant (F := Ideal) S_ .f32 0x00000000#32))) := by
  refine (s6_v47 (after s5 (after s4 (after s3 (after s2 (after s1 (launchContents m c))))))).trans ?_
  rw [V5_v46]
theorem V7_v48 : (after s7 (after s6 (after s5 (after s4 (after s3 (after s2 (after s1 (launchContents m c)))))))) (Proc.devRef .tc main_v48) = (Host.dotGeneral (F := Ideal) (φ₁ := .f32) (φ₂ := .f32) dot_S50000x64_S64x64_S50000x64_1_0_0_1_n_n none (maximumf (addf (Gcn.agg (m ((c.tc : Thread nD τ).loc main_arg1)) (Host.dotGeneral (F := Ideal) (φ₁ := .f32) (φ₂ := .f32) dot_S50000x128_S128x64_S50000x64_1_0_0_1_n_n none (m ((c.tc : Thread nD τ).loc main_arg0)) (m ((c.tc : Thread nD τ).loc main_arg2)))) (broadcastInDim S50000x64 ![0, 1] bcast_S1x64_S50000x64_0_1 (broadcastInDim S1x64 ![1] bcast_S64_S1x64_1 (m ((c.tc : Thread nD τ).loc main_arg3))))) (broadcastInDim S50000x64 ![] bcast_S_S50000x64 (constant (F := Ideal) S_ .f32 0x00000000#32))) (m ((c.tc : Thread nD τ).loc main_arg4))) := by
  refine (s7_v48 (after s6 (after s5 (after s4 (after s3 (after s2 (after s1 (launchContents m c)))))))).trans ?_
  rw [V6_v47, V6_arg4]
theorem V8_v48 : (after s8 (after s7 (after s6 (after s5 (after s4 (after s3 (after s2 (after s1 (launchContents m c))))))))) (Proc.devRef .tc main_v48) = (Host.dotGeneral (F := Ideal) (φ₁ := .f32) (φ₂ := .f32) dot_S50000x64_S64x64_S50000x64_1_0_0_1_n_n none (maximumf (addf (Gcn.agg (m ((c.tc : Thread nD τ).loc main_arg1)) (Host.dotGeneral (F := Ideal) (φ₁ := .f32) (φ₂ := .f32) dot_S50000x128_S128x64_S50000x64_1_0_0_1_n_n none (m ((c.tc : Thread nD τ).loc main_arg0)) (m ((c.tc : Thread nD τ).loc main_arg2)))) (broadcastInDim S50000x64 ![0, 1] bcast_S1x64_S50000x64_0_1 (broadcastInDim S1x64 ![1] bcast_S64_S1x64_1 (m ((c.tc : Thread nD τ).loc main_arg3))))) (broadcastInDim S50000x64 ![] bcast_S_S50000x64 (constant (F := Ideal) S_ .f32 0x00000000#32))) (m ((c.tc : Thread nD τ).loc main_arg4))) :=
  (after_of_forall_not_mem s8 (after s7 (after s6 (after s5 (after s4 (after s3 (after s2 (after s1 (launchContents m c)))))))) (by not_written)).trans (V7_v48 m c)
theorem V9_v48 : (after s9 (after s8 (after s7 (after s6 (after s5 (after s4 (after s3 (after s2 (after s1 (launchContents m c)))))))))) (Proc.devRef .tc main_v48) = (Host.dotGeneral (F := Ideal) (φ₁ := .f32) (φ₂ := .f32) dot_S50000x64_S64x64_S50000x64_1_0_0_1_n_n none (maximumf (addf (Gcn.agg (m ((c.tc : Thread nD τ).loc main_arg1)) (Host.dotGeneral (F := Ideal) (φ₁ := .f32) (φ₂ := .f32) dot_S50000x128_S128x64_S50000x64_1_0_0_1_n_n none (m ((c.tc : Thread nD τ).loc main_arg0)) (m ((c.tc : Thread nD τ).loc main_arg2)))) (broadcastInDim S50000x64 ![0, 1] bcast_S1x64_S50000x64_0_1 (broadcastInDim S1x64 ![1] bcast_S64_S1x64_1 (m ((c.tc : Thread nD τ).loc main_arg3))))) (broadcastInDim S50000x64 ![] bcast_S_S50000x64 (constant (F := Ideal) S_ .f32 0x00000000#32))) (m ((c.tc : Thread nD τ).loc main_arg4))) :=
  (after_of_forall_not_mem s9 (after s8 (after s7 (after s6 (after s5 (after s4 (after s3 (after s2 (after s1 (launchContents m c))))))))) (by not_written)).trans (V8_v48 m c)
theorem V10_v48 : (after s10 (after s9 (after s8 (after s7 (after s6 (after s5 (after s4 (after s3 (after s2 (after s1 (launchContents m c))))))))))) (Proc.devRef .tc main_v48) = (Host.dotGeneral (F := Ideal) (φ₁ := .f32) (φ₂ := .f32) dot_S50000x64_S64x64_S50000x64_1_0_0_1_n_n none (maximumf (addf (Gcn.agg (m ((c.tc : Thread nD τ).loc main_arg1)) (Host.dotGeneral (F := Ideal) (φ₁ := .f32) (φ₂ := .f32) dot_S50000x128_S128x64_S50000x64_1_0_0_1_n_n none (m ((c.tc : Thread nD τ).loc main_arg0)) (m ((c.tc : Thread nD τ).loc main_arg2)))) (broadcastInDim S50000x64 ![0, 1] bcast_S1x64_S50000x64_0_1 (broadcastInDim S1x64 ![1] bcast_S64_S1x64_1 (m ((c.tc : Thread nD τ).loc main_arg3))))) (broadcastInDim S50000x64 ![] bcast_S_S50000x64 (constant (F := Ideal) S_ .f32 0x00000000#32))) (m ((c.tc : Thread nD τ).loc main_arg4))) :=
  (after_of_forall_not_mem s10 (after s9 (after s8 (after s7 (after s6 (after s5 (after s4 (after s3 (after s2 (after s1 (launchContents m c)))))))))) (by not_written)).trans (V9_v48 m c)
theorem V9_v56 : (after s9 (after s8 (after s7 (after s6 (after s5 (after s4 (after s3 (after s2 (after s1 (launchContents m c)))))))))) (Proc.devRef .tc main_v56) = Gcn.dinv (Gcn.dst (m ((c.tc : Thread nD τ).loc main_arg1))) := by
  refine (s9_v56 (after s8 (after s7 (after s6 (after s5 (after s4 (after s3 (after s2 (after s1 (launchContents m c)))))))))).trans ?_
  rw [s8_v54, s8_v55, s8_cst_12, V7_v6]
  rfl
theorem V10_v71 : (after s10 (after s9 (after s8 (after s7 (after s6 (after s5 (after s4 (after s3 (after s2 (after s1 (launchContents m c))))))))))) (Proc.devRef .tc main_v71) = Gcn.nrm (m ((c.tc : Thread nD τ).loc main_arg1)) := by
  refine (s10_v71 (after s9 (after s8 (after s7 (after s6 (after s5 (after s4 (after s3 (after s2 (after s1 (launchContents m c))))))))))).trans ?_
  rw [V9_v56, V9_v3, V9_v6]
  rfl

/-- What the fold leaves in the result buffer: the network of the arguments. -/
theorem after_result : after ops (launchContents m c) (Proc.devRef .tc main_v91)
    = Gcn.model (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [after_ops]
  refine (s11_v91 (after s10 (after s9 (after s8 (after s7 (after s6 (after s5 (after s4 (after s3 (after s2 (after s1 (launchContents m c)))))))))))).trans ?_
  rw [V10_v3, V10_v6, V10_v71, V10_v48, V10_arg5, V10_arg6, V10_arg7]
  exact refModelOf_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- No operation writes an argument: the fold leaves each argument's buffer as launched. -/
theorem after_args :
    after ops (launchContents m c) (Proc.devRef .tc main_arg0) = (m ((c.tc : Thread nD τ).loc main_arg0))
    ∧ after ops (launchContents m c) (Proc.devRef .tc main_arg1) = (m ((c.tc : Thread nD τ).loc main_arg1))
    ∧ after ops (launchContents m c) (Proc.devRef .tc main_arg2) = (m ((c.tc : Thread nD τ).loc main_arg2))
    ∧ after ops (launchContents m c) (Proc.devRef .tc main_arg3) = (m ((c.tc : Thread nD τ).loc main_arg3))
    ∧ after ops (launchContents m c) (Proc.devRef .tc main_arg4) = (m ((c.tc : Thread nD τ).loc main_arg4))
    ∧ after ops (launchContents m c) (Proc.devRef .tc main_arg5) = (m ((c.tc : Thread nD τ).loc main_arg5))
    ∧ after ops (launchContents m c) (Proc.devRef .tc main_arg6) = (m ((c.tc : Thread nD τ).loc main_arg6))
    ∧ after ops (launchContents m c) (Proc.devRef .tc main_arg7) = (m ((c.tc : Thread nD τ).loc main_arg7)) :=
  ⟨after_of_forall_not_mem (ops (F := Ideal)) _ nw_arg0,
   after_of_forall_not_mem (ops (F := Ideal)) _ nw_arg1,
   after_of_forall_not_mem (ops (F := Ideal)) _ nw_arg2,
   after_of_forall_not_mem (ops (F := Ideal)) _ nw_arg3,
   after_of_forall_not_mem (ops (F := Ideal)) _ nw_arg4,
   after_of_forall_not_mem (ops (F := Ideal)) _ nw_arg5,
   after_of_forall_not_mem (ops (F := Ideal)) _ nw_arg6,
   after_of_forall_not_mem (ops (F := Ideal)) _ nw_arg7⟩

end Chain

/-- THE REFERENCE'S RUN: every weakly fair execution terminates with the result buffer at the network of the
    arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v91)
        = Gcn.model (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_v91).trans (after_result m c),
       (h c main_arg0).trans (after_args m c).1,
       (h c main_arg1).trans (after_args m c).2.1,
       (h c main_arg2).trans (after_args m c).2.2.1,
       (h c main_arg3).trans (after_args m c).2.2.2.1,
       (h c main_arg4).trans (after_args m c).2.2.2.2.1,
       (h c main_arg5).trans (after_args m c).2.2.2.2.2.1,
       (h c main_arg6).trans (after_args m c).2.2.2.2.2.2.1,
       (h c main_arg7).trans (after_args m c).2.2.2.2.2.2.2⟩)
    (run_after m ρ)

end Cert.ReferenceIdeal.RefValue

end
-- ==== Proof.lean ====
/-
  A two-layer graph-convolution network with a final dense layer, on 50000 nodes and 850000 edges (the 800000 given
  ones and a self loop per node): the Pallas program against its jnp reference, over the extended reals.

  Both programs form, from the edge list, the edges' ends and the symmetric normalisation weights
  `nrm = deg^(-1/2)[src] · deg^(-1/2)[dst]`, and aggregate a feature matrix `h` over the edges by gathering row `src`,
  scaling by `nrm` and scatter-adding into row `dst` (`Gcn.agg`). The reference computes
      relu (agg (x · W1) + b1),   then   agg (· · W2) + b2,   then   · · Wfc + bfc;
  the kernel runs the three matrix products as pallas_calls over ten blocks of 5000 rows, and folds each bias (and the
  rectifier) into the NEXT call: x · W1;  relu (· + b1) · W2;  (· + b2) · Wfc + bfc. These are the same composition,
  `Gcn.model`, grouped differently: no law of arithmetic is used beyond the fact that a row of a product, of a sum
  with a row vector and of the rectifier depends on the same row of its operand only, so that the ten row blocks of
  each call tile the whole layer. A change of float format is the identity over the extended reals, the kernel's
  matrix unit into a zero accumulator and the host's dot_general are the same sum, and nothing depends on the inputs
  being finite: the precondition is never opened.

  The three frames are the generated ones (the reference's is its run with the result dropped); the idealization
  rewrote nothing, so `preserves` is trivial; `algebraic` puts the two runs side by side, both ending at `Gcn.model` of
  arguments that agree.
-/
import proofs.«162209_j45569603010897_1_alg».proof.Defs
import proofs.«162209_j45569603010897_1_alg».proof.Proof.Gen.Kernel
import proofs.«162209_j45569603010897_1_alg».proof.Proof.Gen.Kernel.Frame
import proofs.«162209_j45569603010897_1_alg».proof.Proof.Gen.KernelIdeal
import proofs.«162209_j45569603010897_1_alg».proof.Proof.Gen.KernelIdeal.Frame
import proofs.«162209_j45569603010897_1_alg».proof.Proof.Gen.ReferenceIdeal
import proofs.«162209_j45569603010897_1_alg».proof.Proof.Gen.Pre_finite_inputs
import proofs.«162209_j45569603010897_1_alg».proof.Proof.KernelRun
import proofs.«162209_j45569603010897_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- Both runs end with the network of the arguments in the result buffer; the arguments agree. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7⟩ := hagree c
  rw [h0, h1, h2, h3, h4, h5, h6, h7]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
